-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1x80x300 : Shape := ⟨3, ![1, 80, 300]⟩
abbrev S80x80 : Shape := ⟨2, ![80, 80]⟩
abbrev S300x1024 : Shape := ⟨2, ![300, 1024]⟩
abbrev S8000x2048 : Shape := ⟨2, ![8000, 2048]⟩
abbrev S8000 : Shape := ⟨1, ![8000]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1x80x300 : S_.BroadcastsInDim S1x80x300 (![] : Fin 0 → Fin S1x80x300.rank)
  reducesTo_S1x80x300_S_d0_1_2 : S1x80x300.ReducesTo [0, 1, 2] S_
  bcast_S_S80x80 : S_.BroadcastsInDim S80x80 (![] : Fin 0 → Fin S80x80.rank)
  reducesTo_S80x80_S_d0_1 : S80x80.ReducesTo [0, 1] S_
  bcast_S_S300x1024 : S_.BroadcastsInDim S300x1024 (![] : Fin 0 → Fin S300x1024.rank)
  reducesTo_S300x1024_S_d0_1 : S300x1024.ReducesTo [0, 1] S_
  bcast_S_S8000x2048 : S_.BroadcastsInDim S8000x2048 (![] : Fin 0 → Fin S8000x2048.rank)
  reducesTo_S8000x2048_S_d0_1 : S8000x2048.ReducesTo [0, 1] S_
  bcast_S_S8000 : S_.BroadcastsInDim S8000 (![] : Fin 0 → Fin S8000.rank)
  reducesTo_S8000_S_d0 : S8000.ReducesTo [0] S_

variable [Facts]

def fn_part2 {F : FTy → Type} [FloatOps F] (main_arg7 : FVec F S8000x2048 .f32) (main_arg8 : FVec F S8000 .f32) (main_v33 : IVec S_ 1) : IVec S_ 1 :=
  let main_v34 : FVec F S8000x2048 .f32 := Host.absf main_arg7
  let main_cst_12 : FVec F S_ .f32 := constant S_ .f32 0x7F800000#32
  let main_v35 : FVec F S8000x2048 .f32 := broadcastInDim S8000x2048 ![] bcast_S_S8000x2048 main_cst_12
  let main_v36 : IVec S8000x2048 1 := cmpf .olt main_v34 main_v35
  let main_c_13 : IVec S_ 1 := constantI S_ 1 1#1
  let main_v37 : IVec S_ 1 := (fun x v => Host.reduce IntOp.andi x v reducesTo_S8000x2048_S_d0_1 h_S_) main_v36 main_c_13
  let main_v38 : IVec S_ 1 := andi main_v33 main_v37
  let main_v39 : FVec F S8000 .f32 := Host.absf main_arg8
  let main_cst_14 : FVec F S_ .f32 := constant S_ .f32 0x7F800000#32
  let main_v40 : FVec F S8000 .f32 := broadcastInDim S8000 ![] bcast_S_S8000 main_cst_14
  let main_v41 : IVec S8000 1 := cmpf .olt main_v39 main_v40
  let main_c_15 : IVec S_ 1 := constantI S_ 1 1#1
  let main_v42 : IVec S_ 1 := (fun x v => Host.reduce IntOp.andi x v reducesTo_S8000_S_d0 h_S_) main_v41 main_c_15
  let main_v43 : IVec S_ 1 := andi main_v38 main_v42
  main_v43

def fn_part1 {F : FTy → Type} [FloatOps F] (main_arg4 : FVec F S1024x2048 .f32) (main_arg5 : FVec F S8000x2048 .f32) (main_arg6 : FVec F S8000 .f32) (main_arg7 : FVec F S8000x2048 .f32) (main_arg8 : FVec F S8000 .f32) (main_v13 : IVec S_ 1) (main_v16 : IVec S300x1024 1) : IVec S_ 1 :=
  let main_c_5 : IVec S_ 1 := constantI S_ 1 1#1
  let main_v17 : IVec S_ 1 := (fun x v => Host.reduce IntOp.andi x v reducesTo_S300x1024_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S8000x2048 .f32 := Host.absf main_arg5
  let main_cst_8 : FVec F S_ .f32 := constant S_ .f32 0x7F800000#32
  let main_v25 : FVec F S8000x2048 .f32 := broadcastInDim S8000x2048 ![] bcast_S_S8000x2048 main_cst_8
  let main_v26 : IVec S8000x2048 1 := cmpf .olt main_v24 main_v25
  let main_c_9 : IVec S_ 1 := constantI S_ 1 1#1
  let main_v27 : IVec S_ 1 := (fun x v => Host.reduce IntOp.andi x v reducesTo_S8000x2048_S_d0_1 h_S_) main_v26 main_c_9
  let main_v28 : IVec S_ 1 := andi main_v23 main_v27
  let main_v29 : FVec F S8000 .f32 := Host.absf main_arg6
  let main_cst_10 : FVec F S_ .f32 := constant S_ .f32 0x7F800000#32
  let main_v30 : FVec F S8000 .f32 := broadcastInDim S8000 ![] bcast_S_S8000 main_cst_10
  let main_v31 : IVec S8000 1 := cmpf .olt main_v29 main_v30
  let main_c_11 : IVec S_ 1 := constantI S_ 1 1#1
  let main_v32 : IVec S_ 1 := (fun x v => Host.reduce IntOp.andi x v reducesTo_S8000_S_d0 h_S_) main_v31 main_c_11
  let main_v33 : IVec S_ 1 := andi main_v28 main_v32
  fn_part2 (F := F) main_arg7 main_arg8 main_v33

def fn {F : FTy → Type} [FloatOps F] (main_arg0 : FVec F S1024x2048 .f32) (main_arg1 : FVec F S1x80x300 .f32) (main_arg2 : FVec F S80x80 .f32) (main_arg3 : FVec F S300x1024 .f32) (main_arg4 : FVec F S1024x2048 .f32) (main_arg5 : FVec F S8000x2048 .f32) (main_arg6 : FVec F S8000 .f32) (main_arg7 : FVec F S8000x2048 .f32) (main_arg8 : FVec F S8000 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1x80x300 .f32 := Host.absf main_arg1
  let main_cst_0 : FVec F S_ .f32 := constant S_ .f32 0x7F800000#32
  let main_v5 : FVec F S1x80x300 .f32 := broadcastInDim S1x80x300 ![] bcast_S_S1x80x300 main_cst_0
  let main_v6 : IVec S1x80x300 1 := cmpf .olt main_v4 main_v5
  let main_c_1 : IVec S_ 1 := constantI S_ 1 1#1
  let main_v7 : IVec S_ 1 := (fun x v => Host.reduce IntOp.andi x v reducesTo_S1x80x300_S_d0_1_2 h_S_) main_v6 main_c_1
  let main_v8 : IVec S_ 1 := andi main_v3 main_v7
  let main_v9 : FVec F S80x80 .f32 := Host.absf main_arg2
  let main_cst_2 : FVec F S_ .f32 := constant S_ .f32 0x7F800000#32
  let main_v10 : FVec F S80x80 .f32 := broadcastInDim S80x80 ![] bcast_S_S80x80 main_cst_2
  let main_v11 : IVec S80x80 1 := cmpf .olt main_v9 main_v10
  let main_c_3 : IVec S_ 1 := constantI S_ 1 1#1
  let main_v12 : IVec S_ 1 := (fun x v => Host.reduce IntOp.andi x v reducesTo_S80x80_S_d0_1 h_S_) main_v11 main_c_3
  let main_v13 : IVec S_ 1 := andi main_v8 main_v12
  let main_v14 : FVec F S300x1024 .f32 := Host.absf main_arg3
  let main_cst_4 : FVec F S_ .f32 := constant S_ .f32 0x7F800000#32
  let main_v15 : FVec F S300x1024 .f32 := broadcastInDim S300x1024 ![] bcast_S_S300x1024 main_cst_4
  let main_v16 : IVec S300x1024 1 := cmpf .olt main_v14 main_v15
  fn_part1 (F := F) main_arg4 main_arg5 main_arg6 main_arg7 main_arg8 main_v13 main_v16
-- ==== Kernel.lean ====
abbrev S1024x2048 : Shape := ⟨2, ![1024, 2048]⟩
abbrev S1x80x300 : Shape := ⟨3, ![1, 80, 300]⟩
abbrev S80x80 : Shape := ⟨2, ![80, 80]⟩
abbrev S300x1024 : Shape := ⟨2, ![300, 1024]⟩
abbrev S8000x2048 : Shape := ⟨2, ![8000, 2048]⟩
abbrev S8000 : Shape := ⟨1, ![8000]⟩
abbrev S80x300 : Shape := ⟨2, ![80, 300]⟩
abbrev S_ : Shape := ⟨0, ![]⟩
abbrev S80 : Shape := ⟨1, ![80]⟩
abbrev S80x1 : Shape := ⟨2, ![80, 1]⟩
abbrev S1x80 : Shape := ⟨2, ![1, 80]⟩
abbrev S80x1024 : Shape := ⟨2, ![80, 1024]⟩
abbrev S80x2048 : Shape := ⟨2, ![80, 2048]⟩
abbrev S2048x8000 : Shape := ⟨2, ![2048, 8000]⟩
abbrev S80x8000 : Shape := ⟨2, ![80, 8000]⟩
abbrev S1x8000 : Shape := ⟨2, ![1, 8000]⟩
abbrev S8192x2048 : Shape := ⟨2, ![8192, 2048]⟩
abbrev S8192 : Shape := ⟨1, ![8192]⟩
abbrev S80x8192 : Shape := ⟨2, ![80, 8192]⟩
abbrev S1x8192 : Shape := ⟨2, ![1, 8192]⟩
abbrev S1024x80 : Shape := ⟨2, ![1024, 80]⟩
abbrev S512x2048 : Shape := ⟨2, ![512, 2048]⟩
abbrev S1x512 : Shape := ⟨2, ![1, 512]⟩
abbrev S80x512 : Shape := ⟨2, ![80, 512]⟩
abbrev S512x80 : Shape := ⟨2, ![512, 80]⟩
abbrev S512x512 : Shape := ⟨2, ![512, 512]⟩

abbrev nBuf : Space → Nat
  | .hbm => 52
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S1x80x300, .f32⟩
  | .hbm, ⟨2, _⟩ => ⟨S80x80, .f32⟩
  | .hbm, ⟨3, _⟩ => ⟨S300x1024, .f32⟩
  | .hbm, ⟨4, _⟩ => ⟨S1024x2048, .f32⟩
  | .hbm, ⟨5, _⟩ => ⟨S8000x2048, .f32⟩
  | .hbm, ⟨6, _⟩ => ⟨S8000, .f32⟩
  | .hbm, ⟨7, _⟩ => ⟨S8000x2048, .f32⟩
  | .hbm, ⟨8, _⟩ => ⟨S8000, .f32⟩
  | .hbm, ⟨9, _⟩ => ⟨S80x300, .f32⟩
  | .hbm, ⟨10, _⟩ => ⟨S_, .f32⟩
  | .hbm, ⟨11, _⟩ => ⟨S80, .f32⟩
  | .hbm, ⟨12, _⟩ => ⟨S_, .f32⟩
  | .hbm, ⟨13, _⟩ => ⟨S80, .f32⟩
  | .hbm, ⟨14, _⟩ => ⟨S80, .f32⟩
  | .hbm, ⟨15, _⟩ => ⟨S80x1, .f32⟩
  | .hbm, ⟨16, _⟩ => ⟨S80x80, .f32⟩
  | .hbm, ⟨17, _⟩ => ⟨S80x80, .f32⟩
  | .hbm, ⟨18, _⟩ => ⟨S80x80, .f32⟩
  | .hbm, ⟨19, _⟩ => ⟨S1x80, .f32⟩
  | .hbm, ⟨20, _⟩ => ⟨S80x80, .f32⟩
  | .hbm, ⟨21, _⟩ => ⟨S80x80, .f32⟩
  | .hbm, ⟨22, _⟩ => ⟨S80x1024, .f32⟩
  | .hbm, ⟨23, _⟩ => ⟨S80x1024, .f32⟩
  | .hbm, ⟨24, _⟩ => ⟨S_, .f32⟩
  | .hbm, ⟨25, _⟩ => ⟨S_, .f32⟩
  | .hbm, ⟨26, _⟩ => ⟨S80x1024, .f32⟩
  | .hbm, ⟨27, _⟩ => ⟨S80x1024, .i1⟩
  | .hbm, ⟨28, _⟩ => ⟨S_, .f32⟩
  | .hbm, ⟨29, _⟩ => ⟨S80x1024, .f32⟩
  | .hbm, ⟨30, _⟩ => ⟨S80x1024, .f32⟩
  | .hbm, ⟨31, _⟩ => ⟨S80x1024, .f32⟩
  | .hbm, ⟨32, _⟩ => ⟨S80x2048, .f32⟩
  | .hbm, ⟨33, _⟩ => ⟨S80x2048, .f32⟩
  | .hbm, ⟨34, _⟩ => ⟨S2048x8000, .f32⟩
  | .hbm, ⟨35, _⟩ => ⟨S80x8000, .f32⟩
  | .hbm, ⟨36, _⟩ => ⟨S1x8000, .f32⟩
  | .hbm, ⟨37, _⟩ => ⟨S80x8000, .f32⟩
  | .hbm, ⟨38, _⟩ => ⟨S80x8000, .f32⟩
  | .hbm, ⟨39, _⟩ => ⟨S_, .i32⟩
  | .hbm, ⟨40, _⟩ => ⟨S_, .f32⟩
  | .hbm, ⟨41, _⟩ => ⟨S8192x2048, .f32⟩
  | .hbm, ⟨42, _⟩ => ⟨S_, .i32⟩
  | .hbm, ⟨43, _⟩ => ⟨S_, .f32⟩
  | .hbm, ⟨44, _⟩ => ⟨S8192, .f32⟩
  | .hbm, ⟨45, _⟩ => ⟨S_, .i32⟩
  | .hbm, ⟨46, _⟩ => ⟨S_, .f32⟩
  | .hbm, ⟨47, _⟩ => ⟨S80x8192, .f32⟩
  | .hbm, ⟨48, _⟩ => ⟨S1024x2048, .bf16⟩
  | .hbm, ⟨49, _⟩ => ⟨S8192x2048, .bf16⟩
  | .hbm, ⟨50, _⟩ => ⟨S1x8192, .f32⟩
  | .hbm, ⟨51, _⟩ => ⟨S1024x80, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S80x512, .f32⟩
  | .local _ .vmem, ⟨7, _⟩ => ⟨S80x512, .f32⟩
  | .local _ .vmem, ⟨8, _⟩ => ⟨S512x80, .f32⟩
  | .local _ .vmem, ⟨9, _⟩ => ⟨S512x80, .f32⟩
  | .local _ .vmem, ⟨10, _⟩ => ⟨S512x80, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_call1_v0 : Ref sig .tc := ⟨.hbm, 40, rfl⟩
abbrev main_v21 : Ref sig .tc := ⟨.hbm, 41, rfl⟩
abbrev main_c_2 : Ref sig .tc := ⟨.hbm, 42, rfl⟩
abbrev main_call2_v0 : Ref sig .tc := ⟨.hbm, 43, rfl⟩
abbrev main_v22 : Ref sig .tc := ⟨.hbm, 44, rfl⟩
abbrev main_c_3 : Ref sig .tc := ⟨.hbm, 45, rfl⟩
abbrev main_call3_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S80x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x80x300_S80x300 : S1x80x300.ShapeCasts S80x300
  reducesTo_S80x80_S80_d1 : S80x80.ReducesTo [1] S80
  h_S_ : 0 < S_.numel
  bcast_S_S80 : S_.BroadcastsInDim S80 (![] : Fin 0 → Fin S80.rank)
  bcast_S80_S80x1_0 : S80.BroadcastsInDim S80x1 (![0] : Fin 1 → Fin S80x1.rank)
  transposes_S80x80_S80x80_1_0 : S80x80.Transposes [1, 0] S80x80
  bcast_S80x1_S80x80_0_1 : S80x1.BroadcastsInDim S80x80 (![0, 1] : Fin 2 → Fin S80x80.rank)
  bcast_S80_S1x80_1 : S80.BroadcastsInDim S1x80 (![1] : Fin 1 → Fin S1x80.rank)
  bcast_S1x80_S80x80_0_1 : S1x80.BroadcastsInDim S80x80 (![0, 1] : Fin 2 → Fin S80x80.rank)
  bcast_S_S80x1024 : S_.BroadcastsInDim S80x1024 (![] : Fin 0 → Fin S80x1024.rank)
  transposes_S8000x2048_S2048x8000_1_0 : S8000x2048.Transposes [1, 0] S2048x8000
  bcast_S8000_S1x8000_1 : S8000.BroadcastsInDim S1x8000 (![1] : Fin 1 → Fin S1x8000.rank)
  bcast_S1x8000_S80x8000_0_1 : S1x8000.BroadcastsInDim S80x8000 (![0, 1] : Fin 2 → Fin S80x8000.rank)
  pads_S8000x2048_S8192x2048_01920_000 : S8000x2048.Pads (![0, 0] : Fin 2 → Nat) ![192, 0] ![0, 0] S8192x2048
  pads_S8000_S8192_01920 : S8000.Pads (![0] : Fin 1 → Nat) ![192] ![0] S8192
  pads_S80x8000_S80x8192_000_01920 : S80x8000.Pads (![0, 0] : Fin 2 → Nat) ![0, 192] ![0, 0] S80x8192
  bitsLt_bf16_f32 : FTy.bits .bf16 < FTy.bits .f32
  shapeCasts_S8192_S1x8192 : S8192.ShapeCasts S1x8192
  inb_S512x80_S512x80_0_0 : ∀ a, (![0, 0] : Fin 2 → Nat) a + S512x80.size a ≤ S512x80.size a
  h_S512x80 : 0 < S512x80.numel
  shapeCasts_S512x80_S512x80 : S512x80.ShapeCasts S512x80
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S80x512_S80x512_0_0 : ∀ a, (![0, 0] : Fin 2 → Nat) a + S80x512.size a ≤ S80x512.size a
  h_S80x512 : 0 < S80x512.numel
  shapeCasts_S80x512_S80x512 : S80x512.ShapeCasts S80x512
  dot_S80x300_S300x1024_S80x1024_1_0_0_1_n_n_wf : DotDims.WF S80x300 S300x1024 S80x1024 [1] [0] [0] [1] [] []
  dot_S80x80_S80x1024_S80x1024_1_0_0_1_n_n_wf : DotDims.WF S80x80 S80x1024 S80x1024 [1] [0] [0] [1] [] []
  dot_S80x1024_S1024x2048_S80x2048_1_0_0_1_n_n_wf : DotDims.WF S80x1024 S1024x2048 S80x2048 [1] [0] [0] [1] [] []
  dot_S80x80_S80x2048_S80x2048_1_0_0_1_n_n_wf : DotDims.WF S80x80 S80x2048 S80x2048 [1] [0] [0] [1] [] []
  dot_S80x2048_S2048x8000_S80x8000_1_0_0_1_n_n_wf : DotDims.WF S80x2048 S2048x8000 S80x8000 [1] [0] [0] [1] [] []
  dot_S512x2048_S512x2048_S512x512_1_1_0_0_n_n_wf : DotDims.WF S512x2048 S512x2048 S512x512 [1] [1] [0] [0] [] []
  dot_S512x512_S80x512_S512x80_1_1_0_0_n_n_wf : DotDims.WF S512x512 S80x512 S512x80 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x2048.size a
  hwx0_0 : ∀ i : grid0.Coords, EltTy.bits .bf16 = 32 ∨ (Rect.block (s := S1024x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x512.size a ≤ S80x8192.size a
  hwx0_3 : ∀ i : grid0.Coords, EltTy.bits .f32 = 32 ∨ (Rect.block (s := S80x8192) S80x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x80.size a ≤ S1024x80.size a
  hwx0_4 : ∀ i : grid0.Coords, EltTy.bits .f32 = 32 ∨ (Rect.block (s := S1024x80) S512x80.size (cc0_transform_4 i) (hinb0_4 i)).WholeWords (EltTy.packing .f32)

variable [Facts₀]

def dot_S80x300_S300x1024_S80x1024_1_0_0_1_n_n : DotDims S80x300 S300x1024 S80x1024 where
  lhsContracting := [1]
  rhsContracting := [0]
  lhsNonContracting := [0]
  rhsNonContracting := [1]
  lhsBatch := []
  rhsBatch := []
  wf := dot_S80x300_S300x1024_S80x1024_1_0_0_1_n_n_wf
def dot_S80x80_S80x1024_S80x1024_1_0_0_1_n_n : DotDims S80x80 S80x1024 S80x1024 where
  lhsContracting := [1]
  rhsContracting := [0]
  lhsNonContracting := [0]
  rhsNonContracting := [1]
  lhsBatch := []
  rhsBatch := []
  wf := dot_S80x80_S80x1024_S80x1024_1_0_0_1_n_n_wf
def dot_S80x1024_S1024x2048_S80x2048_1_0_0_1_n_n : DotDims S80x1024 S1024x2048 S80x2048 where
  lhsContracting := [1]
  rhsContracting := [0]
  lhsNonContracting := [0]
  rhsNonContracting := [1]
  lhsBatch := []
  rhsBatch := []
  wf := dot_S80x1024_S1024x2048_S80x2048_1_0_0_1_n_n_wf
def dot_S80x80_S80x2048_S80x2048_1_0_0_1_n_n : DotDims S80x80 S80x2048 S80x2048 where
  lhsContracting := [1]
  rhsContracting := [0]
  lhsNonContracting := [0]
  rhsNonContracting := [1]
  lhsBatch := []
  rhsBatch := []
  wf := dot_S80x80_S80x2048_S80x2048_1_0_0_1_n_n_wf
def dot_S80x2048_S2048x8000_S80x8000_1_0_0_1_n_n : DotDims S80x2048 S2048x8000 S80x8000 where
  lhsContracting := [1]
  rhsContracting := [0]
  lhsNonContracting := [0]
  rhsNonContracting := [1]
  lhsBatch := []
  rhsBatch := []
  wf := dot_S80x2048_S2048x8000_S80x8000_1_0_0_1_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S80x512_S512x80_1_1_0_0_n_n : DotDims S512x512 S80x512 S512x80 where
  lhsContracting := [1]
  rhsContracting := [1]
  lhsNonContracting := [0]
  rhsNonContracting := [0]
  lhsBatch := []
  rhsBatch := []
  wf := dot_S512x512_S80x512_S512x80_1_1_0_0_n_n_wf

abbrev win0_0 : Pipeline.Window sig grid0 :=
  Pipeline.Window.ofSpec (Memref.whole main_v24) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S80x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S512x80.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x2048 : Shape := ⟨2, ![1024, 2048]⟩
abbrev S1x80x300 : Shape := ⟨3, ![1, 80, 300]⟩
abbrev S80x80 : Shape := ⟨2, ![80, 80]⟩
abbrev S300x1024 : Shape := ⟨2, ![300, 1024]⟩
abbrev S8000x2048 : Shape := ⟨2, ![8000, 2048]⟩
abbrev S8000 : Shape := ⟨1, ![8000]⟩
abbrev S80x300 : Shape := ⟨2, ![80, 300]⟩
abbrev S_ : Shape := ⟨0, ![]⟩
abbrev S80 : Shape := ⟨1, ![80]⟩
abbrev S80x1 : Shape := ⟨2, ![80, 1]⟩
abbrev S1x80 : Shape := ⟨2, ![1, 80]⟩
abbrev S80x1024 : Shape := ⟨2, ![80, 1024]⟩
abbrev S80x2048 : Shape := ⟨2, ![80, 2048]⟩
abbrev S2048x8000 : Shape := ⟨2, ![2048, 8000]⟩
abbrev S1024x8000 : Shape := ⟨2, ![1024, 8000]⟩
abbrev S1x8000 : Shape := ⟨2, ![1, 8000]⟩
abbrev S80x8000 : Shape := ⟨2, ![80, 8000]⟩
abbrev S8000x80 : Shape := ⟨2, ![8000, 80]⟩
abbrev S1024x80 : Shape := ⟨2, ![1024, 80]⟩

abbrev nBuf : Space → Nat
  | .hbm => 46
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x80x300, .f32⟩
  | .hbm, ⟨2, _⟩ => ⟨S80x80, .f32⟩
  | .hbm, ⟨3, _⟩ => ⟨S300x1024, .f32⟩
  | .hbm, ⟨4, _⟩ => ⟨S1024x2048, .f32⟩
  | .hbm, ⟨5, _⟩ => ⟨S8000x2048, .f32⟩
  | .hbm, ⟨6, _⟩ => ⟨S8000, .f32⟩
  | .hbm, ⟨7, _⟩ => ⟨S8000x2048, .f32⟩
  | .hbm, ⟨8, _⟩ => ⟨S8000, .f32⟩
  | .hbm, ⟨9, _⟩ => ⟨S80x300, .f32⟩
  | .hbm, ⟨10, _⟩ => ⟨S_, .f32⟩
  | .hbm, ⟨11, _⟩ => ⟨S80, .f32⟩
  | .hbm, ⟨12, _⟩ => ⟨S_, .f32⟩
  | .hbm, ⟨13, _⟩ => ⟨S80, .f32⟩
  | .hbm, ⟨14, _⟩ => ⟨S80, .f32⟩
  | .hbm, ⟨15, _⟩ => ⟨S80x1, .f32⟩
  | .hbm, ⟨16, _⟩ => ⟨S80x80, .f32⟩
  | .hbm, ⟨17, _⟩ => ⟨S80x80, .f32⟩
  | .hbm, ⟨18, _⟩ => ⟨S80x80, .f32⟩
  | .hbm, ⟨19, _⟩ => ⟨S1x80, .f32⟩
  | .hbm, ⟨20, _⟩ => ⟨S80x80, .f32⟩
  | .hbm, ⟨21, _⟩ => ⟨S80x80, .f32⟩
  | .hbm, ⟨22, _⟩ => ⟨S80x1024, .f32⟩
  | .hbm, ⟨23, _⟩ => ⟨S80x1024, .f32⟩
  | .hbm, ⟨24, _⟩ => ⟨S_, .f32⟩
  | .hbm, ⟨25, _⟩ => ⟨S_, .f32⟩
  | .hbm, ⟨26, _⟩ => ⟨S80x1024, .f32⟩
  | .hbm, ⟨27, _⟩ => ⟨S80x1024, .i1⟩
  | .hbm, ⟨28, _⟩ => ⟨S_, .f32⟩
  | .hbm, ⟨29, _⟩ => ⟨S80x1024, .f32⟩
  | .hbm, ⟨30, _⟩ => ⟨S80x1024, .f32⟩
  | .hbm, ⟨31, _⟩ => ⟨S80x1024, .f32⟩
  | .hbm, ⟨32, _⟩ => ⟨S80x2048, .f32⟩
  | .hbm, ⟨33, _⟩ => ⟨S80x2048, .f32⟩
  | .hbm, ⟨34, _⟩ => ⟨S2048x8000, .f32⟩
  | .hbm, ⟨35, _⟩ => ⟨S1024x8000, .f32⟩
  | .hbm, ⟨36, _⟩ => ⟨S1x8000, .f32⟩
  | .hbm, ⟨37, _⟩ => ⟨S1024x8000, .f32⟩
  | .hbm, ⟨38, _⟩ => ⟨S1024x8000, .f32⟩
  | .hbm, ⟨39, _⟩ => ⟨S2048x8000, .f32⟩
  | .hbm, ⟨40, _⟩ => ⟨S80x8000, .f32⟩
  | .hbm, ⟨41, _⟩ => ⟨S1x8000, .f32⟩
  | .hbm, ⟨42, _⟩ => ⟨S80x8000, .f32⟩
  | .hbm, ⟨43, _⟩ => ⟨S80x8000, .f32⟩
  | .hbm, ⟨44, _⟩ => ⟨S8000x80, .f32⟩
  | .hbm, ⟨45, _⟩ => ⟨S1024x80, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]

class Facts₀ : Prop where
  shapeCasts_S1x80x300_S80x300 : S1x80x300.ShapeCasts S80x300
  reducesTo_S80x80_S80_d1 : S80x80.ReducesTo [1] S80
  h_S_ : 0 < S_.numel
  bcast_S_S80 : S_.BroadcastsInDim S80 (![] : Fin 0 → Fin S80.rank)
  bcast_S80_S80x1_0 : S80.BroadcastsInDim S80x1 (![0] : Fin 1 → Fin S80x1.rank)
  transposes_S80x80_S80x80_1_0 : S80x80.Transposes [1, 0] S80x80
  bcast_S80x1_S80x80_0_1 : S80x1.BroadcastsInDim S80x80 (![0, 1] : Fin 2 → Fin S80x80.rank)
  bcast_S80_S1x80_1 : S80.BroadcastsInDim S1x80 (![1] : Fin 1 → Fin S1x80.rank)
  bcast_S1x80_S80x80_0_1 : S1x80.BroadcastsInDim S80x80 (![0, 1] : Fin 2 → Fin S80x80.rank)
  bcast_S_S80x1024 : S_.BroadcastsInDim S80x1024 (![] : Fin 0 → Fin S80x1024.rank)
  transposes_S8000x2048_S2048x8000_1_0 : S8000x2048.Transposes [1, 0] S2048x8000
  bcast_S8000_S1x8000_1 : S8000.BroadcastsInDim S1x8000 (![1] : Fin 1 → Fin S1x8000.rank)
  bcast_S1x8000_S1024x8000_0_1 : S1x8000.BroadcastsInDim S1024x8000 (![0, 1] : Fin 2 → Fin S1024x8000.rank)
  bcast_S1x8000_S80x8000_0_1 : S1x8000.BroadcastsInDim S80x8000 (![0, 1] : Fin 2 → Fin S80x8000.rank)
  transposes_S80x8000_S8000x80_1_0 : S80x8000.Transposes [1, 0] S8000x80
  dot_S80x300_S300x1024_S80x1024_1_0_0_1_n_n_wf : DotDims.WF S80x300 S300x1024 S80x1024 [1] [0] [0] [1] [] []
  dot_S80x80_S80x1024_S80x1024_1_0_0_1_n_n_wf : DotDims.WF S80x80 S80x1024 S80x1024 [1] [0] [0] [1] [] []
  dot_S80x1024_S1024x2048_S80x2048_1_0_0_1_n_n_wf : DotDims.WF S80x1024 S1024x2048 S80x2048 [1] [0] [0] [1] [] []
  dot_S80x80_S80x2048_S80x2048_1_0_0_1_n_n_wf : DotDims.WF S80x80 S80x2048 S80x2048 [1] [0] [0] [1] [] []
  dot_S1024x2048_S2048x8000_S1024x8000_1_0_0_1_n_n_wf : DotDims.WF S1024x2048 S2048x8000 S1024x8000 [1] [0] [0] [1] [] []
  dot_S80x2048_S2048x8000_S80x8000_1_0_0_1_n_n_wf : DotDims.WF S80x2048 S2048x8000 S80x8000 [1] [0] [0] [1] [] []
  dot_S1024x8000_S8000x80_S1024x80_1_0_0_1_n_n_wf : DotDims.WF S1024x8000 S8000x80 S1024x80 [1] [0] [0] [1] [] []

variable [Facts₀]

def dot_S80x300_S300x1024_S80x1024_1_0_0_1_n_n : DotDims S80x300 S300x1024 S80x1024 where
  lhsContracting := [1]
  rhsContracting := [0]
  lhsNonContracting := [0]
  rhsNonContracting := [1]
  lhsBatch := []
  rhsBatch := []
  wf := dot_S80x300_S300x1024_S80x1024_1_0_0_1_n_n_wf
def dot_S80x80_S80x1024_S80x1024_1_0_0_1_n_n : DotDims S80x80 S80x1024 S80x1024 where
  lhsContracting := [1]
  rhsContracting := [0]
  lhsNonContracting := [0]
  rhsNonContracting := [1]
  lhsBatch := []
  rhsBatch := []
  wf := dot_S80x80_S80x1024_S80x1024_1_0_0_1_n_n_wf
def dot_S80x1024_S1024x2048_S80x2048_1_0_0_1_n_n : DotDims S80x1024 S1024x2048 S80x2048 where
  lhsContracting := [1]
  rhsContracting := [0]
  lhsNonContracting := [0]
  rhsNonContracting := [1]
  lhsBatch := []
  rhsBatch := []
  wf := dot_S80x1024_S1024x2048_S80x2048_1_0_0_1_n_n_wf
def dot_S80x80_S80x2048_S80x2048_1_0_0_1_n_n : DotDims S80x80 S80x2048 S80x2048 where
  lhsContracting := [1]
  rhsContracting := [0]
  lhsNonContracting := [0]
  rhsNonContracting := [1]
  lhsBatch := []
  rhsBatch := []
  wf := dot_S80x80_S80x2048_S80x2048_1_0_0_1_n_n_wf
def dot_S1024x2048_S2048x8000_S1024x8000_1_0_0_1_n_n : DotDims S1024x2048 S2048x8000 S1024x8000 where
  lhsContracting := [1]
  rhsContracting := [0]
  lhsNonContracting := [0]
  rhsNonContracting := [1]
  lhsBatch := []
  rhsBatch := []
  wf := dot_S1024x2048_S2048x8000_S1024x8000_1_0_0_1_n_n_wf
def dot_S80x2048_S2048x8000_S80x8000_1_0_0_1_n_n : DotDims S80x2048 S2048x8000 S80x8000 where
  lhsContracting := [1]
  rhsContracting := [0]
  lhsNonContracting := [0]
  rhsNonContracting := [1]
  lhsBatch := []
  rhsBatch := []
  wf := dot_S80x2048_S2048x8000_S80x8000_1_0_0_1_n_n_wf
def dot_S1024x8000_S8000x80_S1024x80_1_0_0_1_n_n : DotDims S1024x8000 S8000x80 S1024x80 where
  lhsContracting := [1]
  rhsContracting := [0]
  lhsNonContracting := [0]
  rhsNonContracting := [1]
  lhsBatch := []
  rhsBatch := []
  wf := dot_S1024x8000_S8000x80_S1024x80_1_0_0_1_n_n_wf

class Facts : Prop extends Facts₀ where

variable [Facts]
-- ==== Proof.KPieces.lean ====
import proofs.«102190_j7868380086329_2_alg».proof.Proof.Gen.KernelIdeal.Frame
import Idealize.ShloMosaic.Lib.Pipeline.Value
import Idealize.ShloMosaic.Lib.Tactic

/-! What one grid point leaves behind, as values.

The body adds to the accumulator (a 512 x 80 scratch) the product of this point's image-projection tile
(512 x 512) with this point's class-projection tile (80 x 512, contracted along its second axis). At the first
point of a row of the grid the accumulator is reset to zero first; at the last point of a row the accumulator is
copied to the output block. So every point leaves one and the same function of the four input tiles and of the
accumulator it started from; only the start differs (zero at a reset, what the point before left otherwise). -/

noncomputable section

namespace Cert.KPieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A point in the middle of a row: the accumulator ends at the payload over what it held. -/
theorem scratch_B (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S1x512 .f32) (harg4 : arg4.IsWhole) (arg5 : Memref sig .tc .vmem S80x512 .f32) (harg5 : arg5.IsWhole) (arg6 : Memref sig .tc .vmem S512x80 .f32) (harg6 : arg6.IsWhole) (arg7 : Memref sig .tc .vmem S512x80 .f32) (harg7 : arg7.IsWhole) (hc0 : ¬cond0_0 i) (hc1 : ¬cond0_1 i)
    (x0 : Vec F S512x2048 .bf16) (x1 : Vec F S512x2048 .bf16) (x2 : Vec F S1x512 .f32) (x3 : Vec F S80x512 .f32) (xs0 : Vec F S512x80 .f32) :
    sout0_B_0 c i arg2 harg2 arg3 harg3 arg4 harg4 arg5 harg5 arg6 harg6 arg7 harg7 hc0 hc1 x0 x1 x2 x3 xs0 = k0_pay2 x0 x1 x2 xs0 x3 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg4.read_unread, harg5.read_unread, harg7.read_unread,
    View.ld_unit_zero (S := S512x2048) hz, View.ld_unit_zero (S := S1x512) hz, View.ld_unit_zero (S := S80x512) hz, View.ld_unit_zero (S := S512x80) hz]

/-- The last point of a row: the accumulator ends at the same payload, -/
theorem scratch_C (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S1x512 .f32) (harg4 : arg4.IsWhole) (arg5 : Memref sig .tc .vmem S80x512 .f32) (harg5 : arg5.IsWhole) (arg6 : Memref sig .tc .vmem S512x80 .f32) (harg6 : arg6.IsWhole) (arg7 : Memref sig .tc .vmem S512x80 .f32) (harg7 : arg7.IsWhole) (hc0 : ¬cond0_0 i) (hc1 : cond0_1 i)
    (x0 : Vec F S512x2048 .bf16) (x1 : Vec F S512x2048 .bf16) (x2 : Vec F S1x512 .f32) (x3 : Vec F S80x512 .f32) (xs0 : Vec F S512x80 .f32) :
    sout0_C_0 c i arg2 harg2 arg3 harg3 arg4 harg4 arg5 harg5 arg6 harg6 arg7 harg7 hc0 hc1 x0 x1 x2 x3 xs0 = k0_pay2 x0 x1 x2 xs0 x3 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S512x2048) hz, View.ld_unit_zero (S := S1x512) hz, View.ld_unit_zero (S := S80x512) hz, View.ld_unit_zero (S := S512x80) hz]

/-- The first point of a row: the accumulator is reset, so it ends at the payload over the zero block. -/
theorem scratch_A (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S1x512 .f32) (harg4 : arg4.IsWhole) (arg5 : Memref sig .tc .vmem S80x512 .f32) (harg5 : arg5.IsWhole) (arg6 : Memref sig .tc .vmem S512x80 .f32) (harg6 : arg6.IsWhole) (arg7 : Memref sig .tc .vmem S512x80 .f32) (harg7 : arg7.IsWhole) (hc0 : cond0_0 i) (hc1 : ¬cond0_1 i)
    (x0 : Vec F S512x2048 .bf16) (x1 : Vec F S512x2048 .bf16) (x2 : Vec F S1x512 .f32) (x3 : Vec F S80x512 .f32) :
    sout0_A_0 c i arg2 harg2 arg3 harg3 arg4 harg4 arg5 harg5 arg6 harg6 arg7 harg7 hc0 hc1 x0 x1 x2 x3 = k0_pay2 x0 x1 x2 (k0_pay1 (F := F)) x3 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x80) hz, View.readCov_unit_zero (S := S512x80) _ hz]
  simp only [View.readAt_eq_ld, harg2.read_unread, harg3.read_unread, harg4.read_unread, harg5.read_unread, harg7.read_unread,
    View.ld_unit_zero (S := S512x2048) hz, View.ld_unit_zero (S := S1x512) hz, View.ld_unit_zero (S := S80x512) hz, View.ld_unit_zero (S := S512x80) hz]

/-- and the output block receives a copy of it. -/
theorem out_C (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S1x512 .f32) (harg4 : arg4.IsWhole) (arg5 : Memref sig .tc .vmem S80x512 .f32) (harg5 : arg5.IsWhole) (arg6 : Memref sig .tc .vmem S512x80 .f32) (harg6 : arg6.IsWhole) (arg7 : Memref sig .tc .vmem S512x80 .f32) (harg7 : arg7.IsWhole) (hc0 : ¬cond0_0 i) (hc1 : cond0_1 i)
    (x0 : Vec F S512x2048 .bf16) (x1 : Vec F S512x2048 .bf16) (x2 : Vec F S1x512 .f32) (x3 : Vec F S80x512 .f32) (xs0 : Vec F S512x80 .f32) :
    out0_C_4 c i arg2 harg2 arg3 harg3 arg4 harg4 arg5 harg5 arg6 harg6 arg7 harg7 hc0 hc1 x0 x1 x2 x3 xs0 = k0_pay2 x0 x1 x2 xs0 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S512x80) _ hz]
  simp only [View.readAt_eq_ld, harg2.read_unread, harg3.read_unread, harg4.read_unread, harg5.read_unread, harg7.read_unread,
    View.ld_unit_zero (S := S512x2048) hz, View.ld_unit_zero (S := S1x512) hz, View.ld_unit_zero (S := S80x512) hz, View.ld_unit_zero (S := S512x80) hz]

end Cert.KPieces

end
-- ==== Proof.KPayload.lean ====
import proofs.«102190_j7868380086329_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-! The body's arithmetic at one entry, over the extended reals.

With x0 the 512 x 2048 feature tile, x1 the 512 x 2048 tile of the image weights, x2 the 1 x 512 bias tile,
x3 the 80 x 512 class-projection tile and acc the 512 x 80 accumulator, the stored value at (r, c) is
  acc[r, c] + sum over j < 512 of (sum over k < 2048 of x0[r, k] * x1[j, k] + x2[0, j]) * x3[c, j].
Both matrix products contract the second axis of both operands; a change of float format is the identity. -/

noncomputable section

namespace Cert.KPayload

open Idealize.ShloMosaic Idealize.ShloMosaic.ValueIdx
open Cert.KernelIdeal Cert.KernelIdeal.Gen

/-- The first product's dimension record: features (rows, k) against weights (columns, k). -/
abbrev D1 : DotDims S512x2048 S512x2048 S512x512 := dot_S512x2048_S512x2048_S512x512_1_1_0_0_n_n
/-- The second product's: image tile (rows, j) against class tile (classes, j). -/
abbrev D2 : DotDims S512x512 S80x512 S512x80 := dot_S512x512_S80x512_S512x80_1_1_0_0_n_n

theorem lhs1_0 (i : S512x512.Idx) (q : D1.contr.Idx) : (D1.lhsIdx i q 0).val = (i 0).val := by
  unfold DotDims.lhsIdx
  rw [dif_neg (show ¬(0 : Fin S512x2048.rank) ∈ D1.lhsBatch by decide), dif_pos (show (0 : Fin S512x2048.rank) ∈ D1.lhsNonContracting by decide)]
  rfl
theorem lhs1_1 (i : S512x512.Idx) (q : D1.contr.Idx) : (D1.lhsIdx i q 1).val = (q ⟨0, by decide⟩).val :=
  D1.lhsIdx_val_of_single rfl i q
theorem rhs1_0 (i : S512x512.Idx) (q : D1.contr.Idx) : (D1.rhsIdx i q 0).val = (i 1).val := by
  unfold DotDims.rhsIdx
  rw [dif_neg (show ¬(0 : Fin S512x2048.rank) ∈ D1.rhsBatch by decide), dif_pos (show (0 : Fin S512x2048.rank) ∈ D1.rhsNonContracting by decide)]
  rfl
theorem rhs1_1 (i : S512x512.Idx) (q : D1.contr.Idx) : (D1.rhsIdx i q 1).val = (q ⟨0, by decide⟩).val :=
  D1.rhsIdx_val_of_single rfl i q

theorem lhs2_0 (i : S512x80.Idx) (q : D2.contr.Idx) : (D2.lhsIdx i q 0).val = (i 0).val := by
  unfold DotDims.lhsIdx
  rw [dif_neg (show ¬(0 : Fin S512x512.rank) ∈ D2.lhsBatch by decide), dif_pos (show (0 : Fin S512x512.rank) ∈ D2.lhsNonContracting by decide)]
  rfl
theorem lhs2_1 (i : S512x80.Idx) (q : D2.contr.Idx) : (D2.lhsIdx i q 1).val = (q ⟨0, by decide⟩).val :=
  D2.lhsIdx_val_of_single rfl i q
theorem rhs2_0 (i : S512x80.Idx) (q : D2.contr.Idx) : (D2.rhsIdx i q 0).val = (i 1).val := by
  unfold DotDims.rhsIdx
  rw [dif_neg (show ¬(0 : Fin S80x512.rank) ∈ D2.rhsBatch by decide), dif_pos (show (0 : Fin S80x512.rank) ∈ D2.rhsNonContracting by decide)]
  rfl
theorem rhs2_1 (i : S512x80.Idx) (q : D2.contr.Idx) : (D2.rhsIdx i q 1).val = (q ⟨0, by decide⟩).val :=
  D2.rhsIdx_val_of_single rfl i q

/-- The first product into zero, at (r, j): the row of the features against the row of the weights. -/
theorem matmul1_apply (x0 x1 : FVec Ideal S512x2048 .bf16) (r j : Fin 512) :
    FloatOps.matmul D1 none x0 x1 (constant (F := Ideal) S512x512 .f32 0x00000000#32) (ix2 r j)
      = ∑ k : Fin 2048, x0 (ix2 r k) * x1 (ix2 j k) := by
  refine (Ideal.matmul_constant_zero_apply D1 none x0 x1 (ix2 r j)).trans ?_
  rw [← Equiv.sum_comp (contrEquiv1 D1 2048 rfl rfl).symm]
  refine Finset.sum_congr rfl fun k _ => ?_
  have hk := contrEquiv1_symm_val D1 2048 rfl rfl k
  have el : D1.lhsIdx (ix2 r j) ((contrEquiv1 D1 2048 rfl rfl).symm k) = ix2 r k := funext fun a => Fin.ext (by
    match a with
    | ⟨0, _⟩ => exact lhs1_0 _ _
    | ⟨1, _⟩ => exact (lhs1_1 _ _).trans hk)
  have er : D1.rhsIdx (ix2 r j) ((contrEquiv1 D1 2048 rfl rfl).symm k) = ix2 j k := funext fun a => Fin.ext (by
    match a with
    | ⟨0, _⟩ => exact rhs1_0 _ _
    | ⟨1, _⟩ => exact (rhs1_1 _ _).trans hk)
  rw [el, er]

/-- The second product into zero, at (r, c): the row of the image tile against the row of the class tile. -/
theorem matmul2_apply (y : FVec Ideal S512x512 .bf16) (x3 : FVec Ideal S80x512 .bf16) (r : Fin 512) (c : Fin 80) :
    FloatOps.matmul D2 none y x3 (constant (F := Ideal) S512x80 .f32 0x00000000#32) (ix2 r c)
      = ∑ j : Fin 512, y (ix2 r j) * x3 (ix2 c j) := by
  refine (Ideal.matmul_constant_zero_apply D2 none y x3 (ix2 r c)).trans ?_
  rw [← Equiv.sum_comp (contrEquiv1 D2 512 rfl rfl).symm]
  refine Finset.sum_congr rfl fun k _ => ?_
  have hk := contrEquiv1_symm_val D2 512 rfl rfl k
  have el : D2.lhsIdx (ix2 r c) ((contrEquiv1 D2 512 rfl rfl).symm k) = ix2 r k := funext fun a => Fin.ext (by
    match a with
    | ⟨0, _⟩ => exact lhs2_0 _ _
    | ⟨1, _⟩ => exact (lhs2_1 _ _).trans hk)
  have er : D2.rhsIdx (ix2 r c) ((contrEquiv1 D2 512 rfl rfl).symm k) = ix2 c k := funext fun a => Fin.ext (by
    match a with
    | ⟨0, _⟩ => exact rhs2_0 _ _
    | ⟨1, _⟩ => exact (rhs2_1 _ _).trans hk)
  rw [el, er]

/-- The value the body stores, at (r, c): the accumulator's entry plus the tile product's. -/
theorem pay2_apply (x0 x1 : Vec Ideal S512x2048 .bf16) (x2 : Vec Ideal S1x512 .f32) (acc : Vec Ideal S512x80 .f32)
    (x3 : Vec Ideal S80x512 .f32) (r : Fin 512) (c : Fin 80) :
    k0_pay2 x0 x1 x2 acc x3 (ix2 r c)
      = acc (ix2 r c) + ∑ j : Fin 512, ((∑ k : Fin 2048, x0 (ix2 r k) * x1 (ix2 j k)) + x2 (ix2 (0 : Fin 1) j)) * x3 (ix2 c j) := by
  unfold k0_pay2
  simp only [shapeCast_self]
  show acc (ix2 r c) + FloatOps.matmul D2 none _ _ (constant (F := Ideal) S512x80 .f32 0x00000000#32) (ix2 r c) = _
  refine congrArg (acc (ix2 r c) + ·) ?_
  refine (matmul2_apply _ _ r c).trans ?_
  refine Finset.sum_congr rfl fun j _ => ?_
  show (FloatOps.matmul D1 none x0 x1 (constant (F := Ideal) S512x512 .f32 0x00000000#32) (ix2 r j)
      + broadcastTo S512x512 x2 broadcasts_S1x512_S512x512 (ix2 r j)) * x3 (ix2 c j) = _
  rw [matmul1_apply, broadcastTo_1b_ab_apply]

/-- The zero block a reset stores reads zero everywhere. -/
theorem pay1_apply (i : S512x80.Idx) : (k0_pay1 (F := Ideal)) i = 0 := by
  unfold k0_pay1
  simp only [shapeCast_self]
  show Ideal.ofBits .f32 0x00000000#32 = 0
  exact Ideal.ofBits_zero_f32

end Cert.KPayload

end
-- ==== Proof.KAccum.lean ====
import proofs.«102190_j7868380086329_2_alg».proof.Proof.Gen.KernelIdeal.Value
import proofs.«102190_j7868380086329_2_alg».proof.Proof.KPieces
import proofs.«102190_j7868380086329_2_alg».proof.Proof.KPayload

/-! The accumulator along a row of the grid, entry by entry.

A row of the grid is sixteen consecutive points. The first resets the accumulator, and every point adds its own
tile product; so after the point at position j of its row the accumulator's entry is 0 plus the sum of the tile
products of the positions 0 .. j of that row. At the last position the output block receives a copy. -/

noncomputable section

namespace Cert.KAccum

open Idealize.ShloMosaic Idealize.ShloMosaic.TcCoe Idealize.ShloMosaic.ValueIdx Idealize.SL.Sem
open Cert.KernelIdeal Cert.KernelIdeal.Gen Cert.KPieces Cert.KPayload

variable (m : (ℓ : Loc nD τ sig) → Buf (Elt Ideal) ℓ)

/-- One point's tile product at (r, c): image tile (features against weights, plus bias) against class tile. -/
def tileAt (x0 x1 : Vec Ideal S512x2048 .bf16) (x2 : Vec Ideal S1x512 .f32) (x3 : Vec Ideal S80x512 .f32)
    (r : Fin 512) (c : Fin 80) : EReal :=
  ∑ j : Fin 512, ((∑ k : Fin 2048, x0 (ix2 r k) * x1 (ix2 j k)) + x2 (ix2 (0 : Fin 1) j)) * x3 (ix2 c j)

/-- What point n adds to the accumulator's entry i: the tile product of the four blocks the point is given. -/
def addend (c : Dev nD) (n : ℕ) (i : S512x80.Idx) : EReal :=
  if h : n < cfg0.N then
    tileAt (iblk m c 0 ⟨n, h⟩) (iblk m c 1 ⟨n, h⟩) (iblk m c 2 ⟨n, h⟩) (iblk m c 3 ⟨n, h⟩) (i 0) (i 1)
  else 0

theorem pay_entry (x0 x1 : Vec Ideal S512x2048 .bf16) (x2 : Vec Ideal S1x512 .f32) (acc : Vec Ideal S512x80 .f32)
    (x3 : Vec Ideal S80x512 .f32) (i : S512x80.Idx) :
    k0_pay2 x0 x1 x2 acc x3 i = acc i + tileAt x0 x1 x2 x3 (i 0) (i 1) := by
  obtain ⟨r, cc, rfl⟩ : ∃ (r : Fin 512) (cc : Fin 80), i = ix2 r cc := ⟨i 0, i 1, eq_ix2 i⟩
  exact pay2_apply x0 x1 x2 acc x3 r cc

/-- Away from a reset, a point adds its tile product to what the point before left. -/
theorem step_entry (c : Dev nD) (n : ℕ) (h : n < cfg0.N) (hn : ¬n % 16 = 0) (acc : Vec Ideal S512x80 .f32) (i : S512x80.Idx) :
    Value.scAt0_0 m c n h acc i = acc i + addend m c n i := by
  unfold Value.scAt0_0 addend
  rw [dif_neg hn, dif_pos h]
  by_cases h1 : n % 16 = 15
  · rw [dif_pos h1, scratch_C]; exact pay_entry _ _ _ _ _ i
  · rw [dif_neg h1, scratch_B]; exact pay_entry _ _ _ _ _ i

/-- At a reset the accumulator restarts from zero. -/
theorem reset_entry (c : Dev nD) (n : ℕ) (h : n < cfg0.N) (hn : n % 16 = 0) (acc : Vec Ideal S512x80 .f32) (i : S512x80.Idx) :
    Value.scAt0_0 m c n h acc i = 0 + addend m c n i := by
  unfold Value.scAt0_0 addend
  rw [dif_pos hn, dif_neg (by omega), dif_pos h, scratch_A, pay_entry, pay1_apply]

/-- The accumulator after point t: zero plus the tile products of its row up to t. -/
theorem scratch_after (c : Dev nD) (t : Fin cfg0.N) (i : S512x80.Idx) :
    (outsAt0 m c t.val t.isLt).2 i
      = 0 + ∑ s ∈ Finset.range (t.val % 16 + 1), addend m c (16 * (t.val / 16) + s) i := by
  rw [Value.soutsAt0_0_eq m c t]
  exact Pipeline.accAt_add_apply _ _ (fun _ => (0 : EReal)) (addend m c) (16 * (t.val / 16)) 15
    (fun h i => reset_entry m c _ h (by omega) _ i)
    (fun n h acc i hb he => step_entry m c n h (by omega) acc i)
    (t.val % 16) (by omega) _ i

/-- At the last point of a row the output block is a copy of the accumulator. -/
theorem out_eq_scratch (c : Dev nD) (t : Fin cfg0.N) (h0 : ¬t.val % 16 = 0) (h15 : t.val % 16 = 15) :
    (outsAt0 m c t.val t.isLt).1 = (outsAt0 m c t.val t.isLt).2 := by
  rw [outsAt0_C m c t h0 h15]
  dsimp only
  rw [out_C, scratch_C]

end Cert.KAccum

end
-- ==== Proof.KFinal.lean ====
import proofs.«102190_j7868380086329_2_alg».proof.Proof.KAccum

/-! From the blocks to the result array.

Point t = 16 q + s of the grid is given rows 512 q .. 512 q + 511 of the features and positions
512 s .. 512 s + 511 of the (padded) image weights, bias and class projection; it writes rows
512 q .. 512 q + 511 of the result back when s = 15. So the result's entry (512 q + r, c) is zero plus the sum,
over the sixteen positions s of row q, of the tile products, each a sum over the 512 positions of its tile. -/

noncomputable section

namespace Cert.KFinal

open Idealize.ShloMosaic Idealize.ShloMosaic.TcCoe Idealize.ShloMosaic.ValueIdx Idealize.SL.Sem
open Idealize.ShloMosaic.Pipeline (Dat)
open Cert.KernelIdeal Cert.KernelIdeal.Gen Cert.KAccum

variable (m : (ℓ : Loc nD τ sig) → Buf (Elt Ideal) ℓ) (ρ : Dev nD → PrngReg)

/-- The printed index maps over the grid: the feature and result windows follow the row q = t / 16, the other three
    the position s = t % 16. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- The features as the region finds them, by row and column. -/
def featA (c : Dev nD) (b : Fin 1024) (k : Fin 2048) : EReal :=
  (V m c main_v24 : S1024x2048.Idx → EReal) (ix2 b k)

/-- The padded image weights as the region finds them, by position along the padded axis (zero past it). -/
def wimgP (c : Dev nD) (p : ℕ) (k : Fin 2048) : EReal :=
  if h : p < 8192 then (V m c main_v25 : S8192x2048.Idx → EReal) (ix2 ⟨p, h⟩ k) else 0
/-- The padded bias row, by position. -/
def bimgP (c : Dev nD) (p : ℕ) : EReal :=
  if h : p < 8192 then (V m c main_v26 : S1x8192.Idx → EReal) (ix2 (0 : Fin 1) ⟨p, h⟩) else 0
/-- The padded class projection, by class and position. -/
def clsP (c : Dev nD) (cc : Fin 80) (p : ℕ) : EReal :=
  if h : p < 8192 then (V m c main_v23 : S80x8192.Idx → EReal) (ix2 cc ⟨p, h⟩) else 0

theorem blk0 (c : Dev nD) (t : Fin cfg0.N) (q : ℕ) (hq : t.val / 16 = q) (r : Fin 512) (k : Fin 2048)
    (hr : 512 * q + r.val < 1024) :
    (iblk m c 0 t : Vec Ideal S512x2048 .bf16) (ix2 r k) = featA m c ⟨512 * q + r.val, hr⟩ k := by
  obtain ⟨e0, e1, -⟩ := idx_facts t
  unfold featA iblk
  rw [View.read_apply]
  show V m c main_v24 (((cfg0.win 0).blk t).view.emb (ix2 r k)) = _
  refine congrArg (V m c main_v24) (funext fun a => Fin.ext ?_)
  match a with
  | ⟨0, _⟩ => show win0_0.index t (0 : Fin 2) * 512 + 1 * r.val = 512 * q + r.val; omega
  | ⟨1, _⟩ => show win0_0.index t (1 : Fin 2) * 2048 + 1 * k.val = k.val; omega

theorem blk1 (c : Dev nD) (t : Fin cfg0.N) (s : ℕ) (hs : t.val % 16 = s) (j : Fin 512) (k : Fin 2048) :
    (iblk m c 1 t : Vec Ideal S512x2048 .bf16) (ix2 j k) = wimgP m c (s * 512 + j.val) k := by
  obtain ⟨-, -, e0, e1, -⟩ := idx_facts t
  have hp : s * 512 + j.val < 8192 := by have := j.isLt; omega
  unfold wimgP
  rw [dif_pos hp]
  unfold iblk
  rw [View.read_apply]
  show V m c main_v25 (((cfg0.win 1).blk t).view.emb (ix2 j k)) = _
  refine congrArg (V m c main_v25) (funext fun a => Fin.ext ?_)
  match a with
  | ⟨0, _⟩ => show win0_1.index t (0 : Fin 2) * 512 + 1 * j.val = s * 512 + j.val; omega
  | ⟨1, _⟩ => show win0_1.index t (1 : Fin 2) * 2048 + 1 * k.val = k.val; omega

theorem blk2 (c : Dev nD) (t : Fin cfg0.N) (s : ℕ) (hs : t.val % 16 = s) (j : Fin 512) :
    (iblk m c 2 t : Vec Ideal S1x512 .f32) (ix2 (0 : Fin 1) j) = bimgP m c (s * 512 + j.val) := by
  obtain ⟨-, -, -, -, e0, e1, -⟩ := idx_facts t
  have hp : s * 512 + j.val < 8192 := by have := j.isLt; omega
  unfold bimgP
  rw [dif_pos hp]
  unfold iblk
  rw [View.read_apply]
  show V m c main_v26 (((cfg0.win 2).blk t).view.emb (ix2 (0 : Fin 1) j)) = _
  refine congrArg (V m c main_v26) (funext fun a => Fin.ext ?_)
  match a with
  | ⟨0, _⟩ => show win0_2.index t (0 : Fin 2) * 1 + 1 * 0 = 0; omega
  | ⟨1, _⟩ => show win0_2.index t (1 : Fin 2) * 512 + 1 * j.val = s * 512 + j.val; omega

theorem blk3 (c : Dev nD) (t : Fin cfg0.N) (s : ℕ) (hs : t.val % 16 = s) (cc : Fin 80) (j : Fin 512) :
    (iblk m c 3 t : Vec Ideal S80x512 .f32) (ix2 cc j) = clsP m c cc (s * 512 + j.val) := by
  obtain ⟨-, -, -, -, -, -, e0, e1, -⟩ := idx_facts t
  have hp : s * 512 + j.val < 8192 := by have := j.isLt; omega
  unfold clsP
  rw [dif_pos hp]
  unfold iblk
  rw [View.read_apply]
  show V m c main_v23 (((cfg0.win 3).blk t).view.emb (ix2 cc j)) = _
  refine congrArg (V m c main_v23) (funext fun a => Fin.ext ?_)
  match a with
  | ⟨0, _⟩ => show win0_3.index t (0 : Fin 2) * 80 + 1 * cc.val = cc.val; omega
  | ⟨1, _⟩ => show win0_3.index t (1 : Fin 2) * 512 + 1 * j.val = s * 512 + j.val; omega

/-- One result entry, over the arrays as the region finds them: zero plus sixteen tile products. -/
def outAt (c : Dev nD) (b : Fin 1024) (cc : Fin 80) : EReal :=
  0 + ∑ s ∈ Finset.range 16, ∑ j : Fin 512,
    ((∑ k : Fin 2048, featA m c b k * wimgP m c (s * 512 + j.val) k)
      + bimgP m c (s * 512 + j.val)) * clsP m c cc (s * 512 + j.val)

/-- The result array. -/
def out (c : Dev nD) : S1024x80.Idx → EReal := fun i => outAt m c (i 0) (i 1)

/-- A tile product over named factors. -/
theorem tileAt_congr (x0 x1 : Vec Ideal S512x2048 .bf16) (x2 : Vec Ideal S1x512 .f32) (x3 : Vec Ideal S80x512 .f32)
    (r : Fin 512) (cc : Fin 80) (A : Fin 2048 → EReal) (W : Fin 512 → Fin 2048 → EReal) (B X : Fin 512 → EReal)
    (h0 : ∀ k, x0 (ix2 r k) = A k) (h1 : ∀ j k, x1 (ix2 j k) = W j k) (h2 : ∀ j, x2 (ix2 (0 : Fin 1) j) = B j)
    (h3 : ∀ j, x3 (ix2 cc j) = X j) :
    tileAt x0 x1 x2 x3 r cc = ∑ j : Fin 512, ((∑ k : Fin 2048, A k * W j k) + B j) * X j := by
  unfold tileAt
  simp only [h0, h1, h2, h3]

/-- What the point at position s of row q adds, over the arrays. -/
theorem addend_eq (c : Dev nD) (q s : ℕ) (hq : q < 2) (hs : s < 16) (r : Fin 512) (cc : Fin 80)
    (hr : 512 * q + r.val < 1024) :
    addend m c (16 * q + s) (ix2 r cc)
      = ∑ j : Fin 512, ((∑ k : Fin 2048, featA m c ⟨512 * q + r.val, hr⟩ k
          * wimgP m c (s * 512 + j.val) k) + bimgP m c (s * 512 + j.val)) * clsP m c cc (s * 512 + j.val) := by
  have hN : 16 * q + s < cfg0.N := by rw [show cfg0.N = 32 from N_0]; omega
  have hq' : (⟨16 * q + s, hN⟩ : Fin cfg0.N).val / 16 = q := by show (16 * q + s) / 16 = q; omega
  have hs' : (⟨16 * q + s, hN⟩ : Fin cfg0.N).val % 16 = s := by show (16 * q + s) % 16 = s; omega
  unfold addend
  rw [dif_pos hN]
  exact tileAt_congr _ _ _ _ r cc _ _ _ _ (fun k => blk0 m c _ q hq' r k hr) (fun j k => blk1 m c _ s hs' j k)
    (fun j => blk2 m c _ s hs' j) (fun j => blk3 m c _ s hs' cc j)

/-- What the last point of a row writes back is that row's block of the result array. -/
theorem flushed_eq (c : Dev nD) (t : Fin cfg0.N) (hf : (cfg0.win 4).flush t = true) :
    (dats m 0 c).flushed 4 t = ((cfg0.win 4).blk t).view.read (Elt Ideal) (out m c) := by
  have h15 : t.val % 16 = 15 := (flush0_4 t).mp hf
  have hN : t.val < 32 := lt_of_lt_of_eq t.isLt (show cfg0.N = 32 from N_0)
  obtain ⟨-, -, -, -, -, -, -, -, e0, e1⟩ := idx_facts t
  rw [Value.flushed4 m c t, out_eq_scratch m c t (by omega) h15]
  funext y
  obtain ⟨r, cc, rfl⟩ : ∃ (r : Fin 512) (cc : Fin 80), y = ix2 r cc := ⟨y 0, y 1, eq_ix2 y⟩
  have hr : 512 * (t.val / 16) + r.val < 1024 := by have := r.isLt; omega
  have hemb : ((cfg0.win 4).blk t).view.emb (ix2 r cc) = ix2 ⟨512 * (t.val / 16) + r.val, hr⟩ cc :=
    funext fun a => Fin.ext (by
      match a with
      | ⟨0, _⟩ => show win0_4.index t (0 : Fin 2) * 512 + 1 * r.val = 512 * (t.val / 16) + r.val; omega
      | ⟨1, _⟩ => show win0_4.index t (1 : Fin 2) * 80 + 1 * cc.val = cc.val; omega)
  show (outsAt0 m c t.val t.isLt).2 (ix2 r cc) = out m c (((cfg0.win 4).blk t).view.emb (ix2 r cc))
  rw [hemb, scratch_after, h15]
  show 0 + _ = outAt m c ⟨512 * (t.val / 16) + r.val, hr⟩ cc
  unfold outAt
  refine congrArg (0 + ·) (Finset.sum_congr rfl fun s hs => ?_)
  exact addend_eq m c (t.val / 16) s (by omega) (Finset.mem_range.mp hs) r cc hr

/-- Every entry of the result array is in the block of the last point of its row. -/
theorem cover (i : S1024x80.Idx) :
    ∃ t : Fin cfg0.N, (cfg0.win 4).flush t = true ∧ i ∈ ((cfg0.win 4).blk t).view.set := by
  have hi0 : (i 0).val < 1024 := (i 0).isLt
  have hi1 : (i 1).val < 80 := (i 1).isLt
  have hN : 16 * ((i 0).val / 512) + 15 < cfg0.N := by rw [show cfg0.N = 32 from N_0]; omega
  refine ⟨⟨16 * ((i 0).val / 512) + 15, hN⟩, (flush0_4 _).mpr (by show (16 * ((i 0).val / 512) + 15) % 16 = 15; omega), ?_⟩
  obtain ⟨-, -, -, -, -, -, -, -, e0, e1⟩ := idx_facts ⟨16 * ((i 0).val / 512) + 15, hN⟩
  have e0' : win0_4.index ⟨16 * ((i 0).val / 512) + 15, hN⟩ (0 : Fin 2) = (i 0).val / 512 := by
    rw [e0]; show (16 * ((i 0).val / 512) + 15) / 16 = _; omega
  show i ∈ ((View.whole main_v27).slice (win0_4.rect ⟨16 * ((i 0).val / 512) + 15, hN⟩)).set
  rw [View.set_slice_whole, Rect.mem_set_unit]
  intro a
  match a with
  | ⟨0, _⟩ =>
    show win0_4.index ⟨16 * ((i 0).val / 512) + 15, hN⟩ (0 : Fin 2) * 512 ≤ (i 0).val
      ∧ (i 0).val < win0_4.index ⟨16 * ((i 0).val / 512) + 15, hN⟩ (0 : Fin 2) * 512 + 512
    omega
  | ⟨1, _⟩ =>
    show win0_4.index ⟨16 * ((i 0).val / 512) + 15, hN⟩ (1 : Fin 2) * 80 ≤ (i 1).val
      ∧ (i 1).val < win0_4.index ⟨16 * ((i 0).val / 512) + 15, hN⟩ (1 : Fin 2) * 80 + 80
    omega

/-- The result array after the run. -/
theorem final (c : Dev nD) : (dats m 0 c).arrAt 4 cfg0.N = out m c :=
  (dats m 0 c).arrAt_eq_of_cover 4 (out m c) (flushed_eq m c) cover

/-- The kernel program's run, read: the result at the closed form, the arguments unchanged. -/
theorem run : θ_run defs (onTc (τ := τ) (main (F := Ideal))) ⟨m, fun _ => 0, ρ⟩ fun r => ∀ c : Dev nD,
      r.2.mem ((c : Thread nD τ).loc main_v27) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KFinal

end
-- ==== Proof.KOperands.lean ====
import proofs.«102190_j7868380086329_2_alg».proof.Proof.Gen.KernelIdeal.Frame
import Idealize.ShloMosaic.Lib.ValueIdx
import Idealize.ShloMosaic.Lib.KernelVsHost
import Idealize.ShloMosaic.Lib.ValueLayout

set_option maxRecDepth 16384

noncomputable section

namespace Cert.KOperands

open Cert.KernelIdeal Cert.KernelIdeal.Gen Idealize.ShloMosaic Idealize.ShloMosaic.ValueIdx
open Idealize.ShloMosaic.TcCoe

variable (m : (ℓ : Loc nD τ sig) → Buf (Elt Ideal) ℓ) (c : Dev nD)

/-! # The kernel program's operand arrays when the region is entered

The feature matrix unchanged; the image projection's weights and bias padded with zero rows from
8000 to 8192; the class projection padded with zero columns from 8000 to 8192. -/

/-- The padding value: the integer zero converted, read at the one index of the rank-zero shape. -/
theorem padZero (i : S_.Idx) :
    (sitofp .f32 (constantI S_ 32 0#32) : FVec Ideal S_ .f32) i = 0 := by
  show ((((0#32 : BitVec 32).toInt : ℤ) : ℝ) : EReal) = 0
  simp

/-! ## Window 0: the features -/

theorem feat_eq :
    (V m c main_v24 : S1024x2048.Idx → EReal)
      = (truncf .bf16 (m ((c : Thread nD τ).loc main_arg0) : FVec Ideal S1024x2048 .f32) bitsLt_bf16_f32 : FVec Ideal S1024x2048 .bf16) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results

theorem V_feat (b : Fin 1024) (k : Fin 2048) :
    (V m c main_v24 : S1024x2048.Idx → EReal) (ix2 b k)
      = (m ((c : Thread nD τ).loc main_arg0) : S1024x2048.Idx → EReal) (ix2 b k) :=
  congrFun (feat_eq m c) (ix2 b k)

/-! ## Window 1: the image projection's weights, 192 zero rows appended -/

theorem wimg_eq :
    (V m c main_v25 : S8192x2048.Idx → EReal)
      = (truncf .bf16
          (pad S8192x2048 ![0, 0] ![192, 0] ![0, 0] (m ((c : Thread nD τ).loc main_arg5) : FVec Ideal S8000x2048 .f32)
            (sitofp .f32 (constantI S_ 32 0#32) : FVec Ideal S_ .f32) pads_S8000x2048_S8192x2048_01920_000 h_S_ : FVec Ideal S8192x2048 .f32)
          bitsLt_bf16_f32 : FVec Ideal S8192x2048 .bf16) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- A matrix with zero rows appended, read at a row: the operand's row below the old height, zero from there on. -/
theorem pad_rows_apply (x : S8000x2048.Idx → EReal) (v : S_.Idx → EReal) (hv : ∀ i, v i = 0) (j : Fin 8192) (k : Fin 2048) :
    pad S8192x2048 ![0, 0] ![192, 0] ![0, 0] x v pads_S8000x2048_S8192x2048_01920_000 h_S_ (ix2 j k)
      = if h : j.val < 8000 then x (ix2 ⟨j.val, h⟩ k) else 0 := by
  by_cases h : j.val < 8000
  · rw [dif_pos h]
    exact pad_apply_of_inside _ _ _ x v pads_S8000x2048_S8192x2048_01920_000 h_S_ (ix2 j k) (ix2 ⟨j.val, h⟩ k)
      (fun a => match a with
        | ⟨0, _⟩ => by show j.val = 0 + j.val * (0 + 1); omega
        | ⟨1, _⟩ => by show k.val = 0 + k.val * (0 + 1); omega)
  · rw [dif_neg h]
    refine (pad_apply_of_not_inside _ _ _ x v pads_S8000x2048_S8192x2048_01920_000 h_S_ (ix2 j k) (0 : Fin 2)
      (fun hin => h ?_)).trans (hv _)
    have h3 : (j.val - 0) / (0 + 1) < 8000 := hin.2.2
    omega

theorem V_wimg (j : Fin 8192) (k : Fin 2048) :
    (V m c main_v25 : S8192x2048.Idx → EReal) (ix2 j k)
      = (if h : j.val < 8000 then (m ((c : Thread nD τ).loc main_arg5) : S8000x2048.Idx → EReal) (ix2 ⟨j.val, h⟩ k) else 0 : EReal) :=
  (congrFun (wimg_eq m c) (ix2 j k)).trans (pad_rows_apply _ _ padZero j k)

/-! ## Window 2: the bias, 192 zeros appended, as one row -/

theorem bimg_eq :
    (V m c main_v26 : S1x8192.Idx → EReal)
      = shapeCast S1x8192
          (pad S8192 ![0] ![192] ![0] (m ((c : Thread nD τ).loc main_arg6) : FVec Ideal S8000 .f32)
            (sitofp .f32 (constantI S_ 32 0#32) : FVec Ideal S_ .f32) pads_S8000_S8192_01920 h_S_ : FVec Ideal S8192 .f32)
          shapeCasts_S8192_S1x8192 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- A vector with zeros appended, read at an entry. -/
theorem pad_vec_apply (x : S8000.Idx → EReal) (v : S_.Idx → EReal) (hv : ∀ i, v i = 0) (j : Fin 8192) :
    pad S8192 ![0] ![192] ![0] x v pads_S8000_S8192_01920 h_S_ (ix1 j)
      = if h : j.val < 8000 then x (ix1 ⟨j.val, h⟩) else 0 := by
  by_cases h : j.val < 8000
  · rw [dif_pos h]
    exact pad_apply_of_inside _ _ _ x v pads_S8000_S8192_01920 h_S_ (ix1 j) (ix1 ⟨j.val, h⟩)
      (fun a => match a with
        | ⟨0, _⟩ => by show j.val = 0 + j.val * (0 + 1); omega)
  · rw [dif_neg h]
    refine (pad_apply_of_not_inside _ _ _ x v pads_S8000_S8192_01920 h_S_ (ix1 j) (0 : Fin 1)
      (fun hin => h ?_)).trans (hv _)
    have h3 : (j.val - 0) / (0 + 1) < 8000 := hin.2.2
    omega

theorem V_bimg (j : Fin 8192) :
    (V m c main_v26 : S1x8192.Idx → EReal) (ix2 (0 : Fin 1) j)
      = (if h : j.val < 8000 then (m ((c : Thread nD τ).loc main_arg6) : S8000.Idx → EReal) (ix1 ⟨j.val, h⟩) else 0 : EReal) :=
  (congrFun (bimg_eq m c) (ix2 (0 : Fin 1) j)).trans
    ((shapeCast_a_1a_apply _ shapeCasts_S8192_S1x8192 (0 : Fin 1) j).trans (pad_vec_apply _ _ padZero j))

/-! ## Window 3: the class projection, 192 zero columns appended -/

/-- The operations up to the class projection, then the rest: the list of all of them split there. -/
theorem ops_split :
    (List.flatten [hostOps0, hostOps0_1, hostOps0_2, hostOps0_3, hostOps0_4, hostOps0_5, hostOps0_6, hostOps0_7, hostOps0_8]
        : List (HloOp τ sig (Elt Ideal)))
      = List.flatten [hostOps0, hostOps0_1, hostOps0_2]
          ++ List.flatten [hostOps0_3, hostOps0_4, hostOps0_5, hostOps0_6, hostOps0_7, hostOps0_8] := by
  simp only [List.flatten_cons, List.flatten_nil, List.append_assoc, List.append_nil]

theorem cls_eq :
    (V m c main_v23 : S80x8192.Idx → EReal)
      = pad S80x8192 ![0, 0] ![0, 192] ![0, 0] (V m c main_v20 : FVec Ideal S80x8000 .f32)
          (sitofp .f32 (constantI S_ 32 0#32) : FVec Ideal S_ .f32) pads_S80x8000_S80x8192_000_01920 h_S_ := by
  dsimp only [Gen.V]
  rw [ops_split, StableHlo.after_append]
  generalize StableHlo.after (List.flatten [hostOps0, hostOps0_1, hostOps0_2]) (fun b => m (c, b)) = W
  simp only [Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- A matrix with zero columns appended, read at a column. -/
theorem pad_cols_apply (x : S80x8000.Idx → EReal) (v : S_.Idx → EReal) (hv : ∀ i, v i = 0) (cc : Fin 80) (j : Fin 8192) :
    pad S80x8192 ![0, 0] ![0, 192] ![0, 0] x v pads_S80x8000_S80x8192_000_01920 h_S_ (ix2 cc j)
      = if h : j.val < 8000 then x (ix2 cc ⟨j.val, h⟩) else 0 := by
  by_cases h : j.val < 8000
  · rw [dif_pos h]
    exact pad_apply_of_inside _ _ _ x v pads_S80x8000_S80x8192_000_01920 h_S_ (ix2 cc j) (ix2 cc ⟨j.val, h⟩)
      (fun a => match a with
        | ⟨0, _⟩ => by show cc.val = 0 + cc.val * (0 + 1); omega
        | ⟨1, _⟩ => by show j.val = 0 + j.val * (0 + 1); omega)
  · rw [dif_neg h]
    refine (pad_apply_of_not_inside _ _ _ x v pads_S80x8000_S80x8192_000_01920 h_S_ (ix2 cc j) (1 : Fin 2)
      (fun hin => h ?_)).trans (hv _)
    have h3 : (j.val - 0) / (0 + 1) < 8000 := hin.2.2
    omega

theorem V_cls (cc : Fin 80) (j : Fin 8192) :
    (V m c main_v23 : S80x8192.Idx → EReal) (ix2 cc j)
      = (if h : j.val < 8000 then (V m c main_v20 : S80x8000.Idx → EReal) (ix2 cc ⟨j.val, h⟩) else 0 : EReal) :=
  (congrFun (cls_eq m c) (ix2 cc j)).trans (pad_cols_apply _ _ padZero cc j)

end Cert.KOperands
-- ==== Proof.LibBlockSum.lean ====
/-
  General facts for a sum that is taken block by block, and for the 0/1 value of a one-bit word.

  Nothing here mentions a program. Three things:
   * a sum over B·Q terms is the sum over the B blocks of the Q terms of each block (position b·Q + q), in any commutative
     monoid — in particular on the extended reals, where no finiteness is needed for it;
   * a quantity that starts at  0 + P 0  and gains  P (n+1)  at each step is, after step n, the sum of P over 0 … n;
   * the one-bit result of a comparison, widened to 32 bits by padding with zeros and then read as a SIGNED integer, is the
     same number (0 or 1) as the bit read as an UNSIGNED integer: the widened word is 0 or 1, never negative.
-/
import Mathlib.Algebra.BigOperators.Fin
import Mathlib.Algebra.BigOperators.Group.Finset.Basic
import Mathlib.Logic.Equiv.Fin.Basic
import Mathlib.Data.Real.Basic

namespace BlockSum

open Finset

/-- A sum over `B * Q` consecutive positions, taken block by block: block `b` holds positions `b * Q + q`, `q < Q`. -/
theorem sum_blocks {M : Type*} [AddCommMonoid M] (B Q : ℕ) (f : ℕ → M) :
    ∑ b : Fin B, ∑ q : Fin Q, f (b.val * Q + q.val) = ∑ p : Fin (B * Q), f p.val := by
  calc ∑ b : Fin B, ∑ q : Fin Q, f (b.val * Q + q.val)
      = ∑ x : Fin B × Fin Q, f (x.1.val * Q + x.2.val) :=
        (Fintype.sum_prod_type' (fun (b : Fin B) (q : Fin Q) => f (b.val * Q + q.val))).symm
    _ = ∑ x : Fin B × Fin Q, f (finProdFinEquiv x).val := by
        refine Finset.sum_congr rfl fun x _ => ?_
        rw [finProdFinEquiv_apply_val]
        congr 1
        rw [Nat.mul_comm, Nat.add_comm]
    _ = ∑ p : Fin (B * Q), f p.val := Equiv.sum_comp finProdFinEquiv (fun p => f p.val)

/-- A running total that starts at `0 + P 0` and adds `P (n + 1)` at step `n + 1` is the sum of `P` over `0 … n`. -/
theorem running_total {M : Type*} [AddCommMonoid M] (P : ℕ → M) (a : ℕ → M) (N : ℕ)
    (h0 : a 0 = 0 + P 0) (hs : ∀ n, n + 1 < N → a (n + 1) = a n + P (n + 1)) :
    ∀ n, n < N → a n = ∑ b ∈ Finset.range (n + 1), P b
  | 0, _ => by rw [h0, zero_add, Finset.sum_range_one]
  | n + 1, h => by
    rw [hs n h, running_total P a N h0 hs n (Nat.lt_of_succ_lt h), Finset.sum_range_succ _ (n + 1)]

/-- A one-bit word is 0 or 1. -/
theorem bit_cases (b : BitVec 1) : b = 0#1 ∨ b = 1#1 := by
  rcases b with ⟨⟨v, hv⟩⟩
  have : v = 0 ∨ v = 1 := by omega
  rcases this with rfl | rfl
  · exact Or.inl rfl
  · exact Or.inr rfl

/-- Padding a one-bit word with zeros to 32 bits and reading it as a signed integer gives the bit itself: 0 or 1. -/
theorem toInt_setWidth_bit (b : BitVec 1) : ((b.setWidth 32).toInt : ℝ) = (b.toNat : ℝ) := by
  rcases bit_cases b with rfl | rfl
  · norm_num
  · norm_num

end BlockSum
-- ==== Proof.BlockAlg.lean ====
import proofs.«102190_j7868380086329_2_alg».proof.Proof.LibBlockSum
import Mathlib.Algebra.BigOperators.Intervals

/-! A sum over 8000 positions taken as 16 blocks of 512, the last 192 positions holding zero.

16 * 512 = 8192 = 8000 + 192. If f vanishes from position 8000 on, the sum of f over the sixteen blocks of 512
consecutive positions is the sum of f over the first 8000 positions. This holds in any commutative monoid: only the
order and the grouping of the terms change, and zeros are dropped. -/

namespace Cert.BlockAlg

open Finset

theorem padded_blocks {M : Type*} [AddCommMonoid M] (f : ℕ → M) (hf : ∀ p, 8000 ≤ p → f p = 0) :
    ∑ s ∈ Finset.range 16, ∑ q : Fin 512, f (s * 512 + q.val) = ∑ j : Fin 8000, f j.val := by
  rw [Finset.sum_range (fun s => ∑ q : Fin 512, f (s * 512 + q.val)), BlockSum.sum_blocks 16 512 f,
    Fin.sum_univ_eq_sum_range f (16 * 512), Fin.sum_univ_eq_sum_range f 8000,
    show 16 * 512 = 8000 + 192 from rfl, Finset.sum_range_add]
  rw [Finset.sum_eq_zero (s := Finset.range 192) (fun x _ => hf (8000 + x) (Nat.le_add_right _ _)), add_zero]

end Cert.BlockAlg
-- ==== Proof.Spec.lean ====
import Idealize.ShloMosaic.PureOps.Ideal
import Idealize.ShloMosaic.Lib.ValueIdx

/-! The function both programs compute, entry by entry, over the extended reals.

feat is the 1024 x 2048 feature matrix, W and bias the image projection (8000 x 2048 and 8000),
X the 80 x 8000 class projection. The bilinear pooling is
  out[b, c] = sum over j < 8000 of (sum over k < 2048 of feat[b, k] * W[j, k] + bias[j]) * X[c, j]. -/

noncomputable section

namespace Cert.Spec

open Idealize.ShloMosaic Idealize.ShloMosaic.ValueIdx

/-- One image-projection entry: row b of the features against row j of W, plus the bias. -/
def imgAt (feat : (⟨2, ![1024, 2048]⟩ : Shape).Idx → EReal) (W : (⟨2, ![8000, 2048]⟩ : Shape).Idx → EReal)
    (bias : (⟨1, ![8000]⟩ : Shape).Idx → EReal) (b : Fin 1024) (j : Fin 8000) : EReal :=
  (∑ k : Fin 2048, feat (ix2 b k) * W (ix2 j k)) + bias (ix1 j)

/-- One entry of the pooled output: the image projection of row b against the class projection of class c. -/
def bilinAt (feat : (⟨2, ![1024, 2048]⟩ : Shape).Idx → EReal) (W : (⟨2, ![8000, 2048]⟩ : Shape).Idx → EReal)
    (bias : (⟨1, ![8000]⟩ : Shape).Idx → EReal) (X : (⟨2, ![80, 8000]⟩ : Shape).Idx → EReal)
    (b : Fin 1024) (c : Fin 80) : EReal :=
  ∑ j : Fin 8000, imgAt feat W bias b j * X (ix2 c j)

/-- The pooled output as one array. -/
def bilin (feat : (⟨2, ![1024, 2048]⟩ : Shape).Idx → EReal) (W : (⟨2, ![8000, 2048]⟩ : Shape).Idx → EReal)
    (bias : (⟨1, ![8000]⟩ : Shape).Idx → EReal) (X : (⟨2, ![80, 8000]⟩ : Shape).Idx → EReal) :
    (⟨2, ![1024, 80]⟩ : Shape).Idx → EReal :=
  fun i => bilinAt feat W bias X (i 0) (i 1)

theorem bilin_ix2 (feat : (⟨2, ![1024, 2048]⟩ : Shape).Idx → EReal) (W : (⟨2, ![8000, 2048]⟩ : Shape).Idx → EReal)
    (bias : (⟨1, ![8000]⟩ : Shape).Idx → EReal) (X : (⟨2, ![80, 8000]⟩ : Shape).Idx → EReal) (b : Fin 1024) (c : Fin 80) :
    bilin feat W bias X (ix2 b c) = bilinAt feat W bias X b c := rfl

end Cert.Spec

end
-- ==== Proof.KBridge.lean ====
import proofs.«102190_j7868380086329_2_alg».proof.Proof.KFinal
import proofs.«102190_j7868380086329_2_alg».proof.Proof.KOperands
import proofs.«102190_j7868380086329_2_alg».proof.Proof.BlockAlg
import proofs.«102190_j7868380086329_2_alg».proof.Proof.Spec

/-! The kernel program's result is the bilinear pooling of its arguments.

The arrays the region finds are the features, and the image weights, bias and class projection each extended by
192 zero positions. A padded position contributes (sum of x * 0 + 0) * 0 = 0 to an entry (on the extended reals
x * 0 = 0 for every x), so the sixteen tiles of 512 positions sum to the sum over the 8000 true positions. -/

noncomputable section

namespace Cert.KBridge

open Idealize.ShloMosaic Idealize.ShloMosaic.TcCoe Idealize.ShloMosaic.ValueIdx Idealize.SL.Sem
open Cert.KernelIdeal Cert.KernelIdeal.Gen Cert.KFinal Cert.KOperands

variable (m : (ℓ : Loc nD τ sig) → Buf (Elt Ideal) ℓ) (ρ : Dev nD → PrngReg)

theorem wimgP_eq (c : Dev nD) (p : ℕ) (k : Fin 2048) :
    wimgP m c p k = (if h : p < 8000 then (m ((c : Thread nD τ).loc main_arg5) : S8000x2048.Idx → EReal) (ix2 ⟨p, h⟩ k) else 0 : EReal) := by
  unfold wimgP
  by_cases h8 : p < 8192
  · rw [dif_pos h8]; exact V_wimg m c ⟨p, h8⟩ k
  · rw [dif_neg h8, dif_neg (by omega)]

theorem bimgP_eq (c : Dev nD) (p : ℕ) :
    bimgP m c p = (if h : p < 8000 then (m ((c : Thread nD τ).loc main_arg6) : S8000.Idx → EReal) (ix1 ⟨p, h⟩) else 0 : EReal) := by
  unfold bimgP
  by_cases h8 : p < 8192
  · rw [dif_pos h8]; exact V_bimg m c ⟨p, h8⟩
  · rw [dif_neg h8, dif_neg (by omega)]

theorem clsP_eq (c : Dev nD) (cc : Fin 80) (p : ℕ) :
    clsP m c cc p = (if h : p < 8000 then (V m c main_v20 : S80x8000.Idx → EReal) (ix2 cc ⟨p, h⟩) else 0 : EReal) := by
  unfold clsP
  by_cases h8 : p < 8192
  · rw [dif_pos h8]; exact V_cls m c cc ⟨p, h8⟩
  · rw [dif_neg h8, dif_neg (by omega)]

/-- The term of position p in an entry: the true term below 8000, zero from there on. -/
def term (c : Dev nD) (b : Fin 1024) (cc : Fin 80) (p : ℕ) : EReal :=
  if h : p < 8000 then
    Cert.Spec.imgAt (m ((c : Thread nD τ).loc main_arg0)) (m ((c : Thread nD τ).loc main_arg5))
        (m ((c : Thread nD τ).loc main_arg6)) b ⟨p, h⟩
      * (V m c main_v20 : S80x8000.Idx → EReal) (ix2 cc ⟨p, h⟩)
  else 0

theorem term_eq (c : Dev nD) (b : Fin 1024) (cc : Fin 80) (p : ℕ) :
    ((∑ k : Fin 2048, featA m c b k * wimgP m c p k) + bimgP m c p) * clsP m c cc p
      = term m c b cc p := by
  unfold term featA
  rw [bimgP_eq, clsP_eq]
  simp only [wimgP_eq, V_feat]
  by_cases h : p < 8000
  · simp only [dif_pos h]
    rfl
  · simp only [dif_neg h, mul_zero, Finset.sum_const_zero, add_zero]

/-- The result array the kernel program leaves is the pooling of its arguments and of the class projection it computed. -/
theorem out_eq (c : Dev nD) :
    out m c = Cert.Spec.bilin (m ((c : Thread nD τ).loc main_arg0)) (m ((c : Thread nD τ).loc main_arg5))
      (m ((c : Thread nD τ).loc main_arg6)) (V m c main_v20) := by
  funext i
  obtain ⟨b, cc, rfl⟩ : ∃ (b : Fin 1024) (cc : Fin 80), i = ix2 b cc := ⟨i 0, i 1, eq_ix2 i⟩
  show outAt m c b cc = Cert.Spec.bilinAt _ _ _ _ b cc
  unfold outAt Cert.Spec.bilinAt
  rw [zero_add]
  simp only [term_eq]
  rw [Cert.BlockAlg.padded_blocks (term m c b cc) (fun p hp => dif_neg (by omega))]
  refine Finset.sum_congr rfl fun j _ => ?_
  show (if h : j.val < 8000 then _ else 0) = _
  rw [dif_pos j.isLt]

end Cert.KBridge

end
-- ==== Proof.ClsTerm.lean ====
import proofs.«102190_j7868380086329_2_alg».proof.Proof.Gen.ReferenceIdeal
import Idealize.ShloMosaic.PureOps.Ideal

/-! The class projection as one term of six argument arrays, over the extended reals.

With D the row sums of A raised to the power -1/2, the normalised adjacency is
adj[i, j] = D[i] * A[j, i] * D[j]. The first graph layer is x1 = leaky_relu (adj · (inp0 · W1)) with
slope 0.2 (x where x ≥ 0, else 0.2 * x); the second is x2 = adj · (x1 · W2). The class projection is
x2 · Wcᵀ + bc, an 80 × 8000 array. Each definition below is the composition of the host operations that
compute it, in their order, so that the reference program's result buffer holds exactly this term. -/

noncomputable section

namespace Cert.ClsTerm

open Idealize.ShloMosaic Cert.ReferenceIdeal
open Cert.ReferenceIdeal.Facts₀

/-- The vector D: each row sum of A to the power -1/2. -/
def dinv (a2 : (⟨S80x80, .f32⟩ : BufTy).Contents (Elt Ideal)) : (⟨S80, .f32⟩ : BufTy).Contents (Elt Ideal) :=
  Host.powf (F := Ideal) (φ := .f32)
    (Host.reduceAdd (F := Ideal) (φ := .f32) a2 (constant (F := Ideal) S_ .f32 0x00000000#32) reducesTo_S80x80_S80_d1 h_S_)
    (broadcastInDim S80 ![] bcast_S_S80 (constant (F := Ideal) S_ .f32 0xBF000000#32))

/-- The normalised adjacency: D as a column times the transpose of A, times D as a row. -/
def adj (a2 : (⟨S80x80, .f32⟩ : BufTy).Contents (Elt Ideal)) : (⟨S80x80, .f32⟩ : BufTy).Contents (Elt Ideal) :=
  mulf (F := Ideal) (φ := .f32)
    (mulf (F := Ideal) (φ := .f32)
      (broadcastInDim S80x80 ![0, 1] bcast_S80x1_S80x80_0_1 (broadcastInDim S80x1 ![0] bcast_S80_S80x1_0 (dinv a2)))
      (transpose S80x80 [1, 0] a2 transposes_S80x80_S80x80_1_0))
    (broadcastInDim S80x80 ![0, 1] bcast_S1x80_S80x80_0_1 (broadcastInDim S1x80 ![1] bcast_S80_S1x80_1 (dinv a2)))

/-- The first layer before its activation: adj · (inp0 · W1), inp0 the single 80 × 300 slice of the input. -/
def pre1 (a1 : (⟨S1x80x300, .f32⟩ : BufTy).Contents (Elt Ideal)) (a2 : (⟨S80x80, .f32⟩ : BufTy).Contents (Elt Ideal))
    (a3 : (⟨S300x1024, .f32⟩ : BufTy).Contents (Elt Ideal)) : (⟨S80x1024, .f32⟩ : BufTy).Contents (Elt Ideal) :=
  Host.dotGeneral (F := Ideal) (φ₁ := .f32) (φ₂ := .f32) dot_S80x80_S80x1024_S80x1024_1_0_0_1_n_n none (adj a2)
    (Host.dotGeneral (F := Ideal) (φ₁ := .f32) (φ₂ := .f32) dot_S80x300_S300x1024_S80x1024_1_0_0_1_n_n none
      (shapeCast S80x300 a1 shapeCasts_S1x80x300_S80x300) a3)

/-- The leaky rectifier with slope 0.2, entry by entry: x where x ≥ 0, else 0.2 * x. -/
def leaky (x : (⟨S80x1024, .f32⟩ : BufTy).Contents (Elt Ideal)) : (⟨S80x1024, .f32⟩ : BufTy).Contents (Elt Ideal) :=
  select
    (cmpf (F := Ideal) (φ := .f32) .oge x (broadcastInDim S80x1024 ![] bcast_S_S80x1024 (constant (F := Ideal) S_ .f32 0x00000000#32)))
    x
    (mulf (F := Ideal) (φ := .f32)
      (broadcastInDim S80x1024 ![] bcast_S_S80x1024 (id (constant (F := Ideal) S_ .f32 0x3E4CCCCD#32))) x)

/-- The first layer: the activation of adj · (inp0 · W1). -/
def x1 (a1 : (⟨S1x80x300, .f32⟩ : BufTy).Contents (Elt Ideal)) (a2 : (⟨S80x80, .f32⟩ : BufTy).Contents (Elt Ideal))
    (a3 : (⟨S300x1024, .f32⟩ : BufTy).Contents (Elt Ideal)) : (⟨S80x1024, .f32⟩ : BufTy).Contents (Elt Ideal) :=
  leaky (pre1 a1 a2 a3)

/-- The second layer: adj · (x1 · W2). -/
def x2 (a1 : (⟨S1x80x300, .f32⟩ : BufTy).Contents (Elt Ideal)) (a2 : (⟨S80x80, .f32⟩ : BufTy).Contents (Elt Ideal))
    (a3 : (⟨S300x1024, .f32⟩ : BufTy).Contents (Elt Ideal)) (a4 : (⟨S1024x2048, .f32⟩ : BufTy).Contents (Elt Ideal)) :
    (⟨S80x2048, .f32⟩ : BufTy).Contents (Elt Ideal) :=
  Host.dotGeneral (F := Ideal) (φ₁ := .f32) (φ₂ := .f32) dot_S80x80_S80x2048_S80x2048_1_0_0_1_n_n none (adj a2)
    (Host.dotGeneral (F := Ideal) (φ₁ := .f32) (φ₂ := .f32) dot_S80x1024_S1024x2048_S80x2048_1_0_0_1_n_n none (x1 a1 a2 a3) a4)

/-- The class projection: x2 · Wcᵀ + bc, the bias broadcast along the 80 classes. -/
def clsTerm (a1 : (⟨S1x80x300, .f32⟩ : BufTy).Contents (Elt Ideal)) (a2 : (⟨S80x80, .f32⟩ : BufTy).Contents (Elt Ideal))
    (a3 : (⟨S300x1024, .f32⟩ : BufTy).Contents (Elt Ideal)) (a4 : (⟨S1024x2048, .f32⟩ : BufTy).Contents (Elt Ideal))
    (a7 : (⟨S8000x2048, .f32⟩ : BufTy).Contents (Elt Ideal)) (a8 : (⟨S8000, .f32⟩ : BufTy).Contents (Elt Ideal)) :
    (⟨S80x8000, .f32⟩ : BufTy).Contents (Elt Ideal) :=
  addf (F := Ideal) (φ := .f32)
    (Host.dotGeneral (F := Ideal) (φ₁ := .f32) (φ₂ := .f32) dot_S80x2048_S2048x8000_S80x8000_1_0_0_1_n_n none (x2 a1 a2 a3 a4)
      (transpose S2048x8000 [1, 0] a7 transposes_S8000x2048_S2048x8000_1_0))
    (broadcastInDim S80x8000 ![0, 1] bcast_S1x8000_S80x8000_0_1 (broadcastInDim S1x8000 ![1] bcast_S8000_S1x8000_1 a8))

end Cert.ClsTerm

end
-- ==== Proof.KClsProj.lean ====
import proofs.«102190_j7868380086329_2_alg».proof.Proof.Gen.KernelIdeal.Frame
import proofs.«102190_j7868380086329_2_alg».proof.Proof.ClsTerm

set_option maxRecDepth 16384

noncomputable section

namespace Cert.KClsProj

open Cert.KernelIdeal Cert.KernelIdeal.Gen Idealize.ShloMosaic
open Idealize.ShloMosaic.TcCoe

variable (m : (ℓ : Loc nD τ sig) → Buf (Elt Ideal) ℓ) (c : Dev nD)

/-! # The class projection the kernel program's host operations leave

The kernel program computes the 80 × 8000 class projection on the host before the region, by the same
chain of operations as the reference program: the normalised adjacency from the row sums of A, the two
graph layers with the leaky rectifier between them, and the product with the transposed class weights plus
the class bias. What its buffer holds when the region is entered is therefore the shared term of the six
argument arrays. -/

attribute [local irreducible] Host.reduceAdd Host.powf transpose broadcastInDim shapeCast select cmpf mulf addf constant in
set_option maxHeartbeats 1000000 in
/-- The class projection's buffer holds the composition of the host operations that compute it, which is the
    shared term of the six argument arrays. -/
theorem V_clsProj :
    (V m c main_v20 : S80x8000.Idx → EReal)
      = Cert.ClsTerm.clsTerm (m ((c : Thread nD τ).loc main_arg1)) (m ((c : Thread nD τ).loc main_arg2))
          (m ((c : Thread nD τ).loc main_arg3)) (m ((c : Thread nD τ).loc main_arg4))
          (m ((c : Thread nD τ).loc main_arg7)) (m ((c : Thread nD τ).loc main_arg8)) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

end Cert.KClsProj
-- ==== Proof.RefRun.lean ====
import proofs.«102190_j7868380086329_2_alg».proof.Proof.Gen.ReferenceIdeal
import Idealize.ShloMosaic.Lib.StableHlo.Run

/-! The reference program as a straight line of its thirty-seven host operations, and its run.

The program calls the leaky rectifier, which calls the selection: a call means the callee's body on the
operands, so the seven operations of the two bodies stand in the list at the call site, over the call's own
buffers. Every weakly fair execution terminates with each buffer at the fold of the operations over the launch
contents. -/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations in order: sixteen before the call, the rectifier's seven (a zero, its broadcast, the
    comparison, the slope converted to its own type, its broadcast, the product, the selection), fourteen after. -/
abbrev ops : List (HloOp τ sig (Elt F)) :=
  [ reshape main_arg1 main_v0 rfl shapeCasts_S1x80x300_S80x300,
    nullary main_cst (constant S_ .f32 0x00000000#32),
    binary main_arg2 main_cst main_v1 ((fun x v => Host.reduceAdd x v reducesTo_S80x80_S80_d1 h_S_) : (⟨S80x80, .f32⟩ : BufTy).Contents (Elt F) → (⟨S_, .f32⟩ : BufTy).Contents (Elt F) → (⟨S80, .f32⟩ : BufTy).Contents (Elt F)),
    nullary main_cst_0 (constant S_ .f32 0xBF000000#32),
    unary main_cst_0 main_v2 (broadcastInDim S80 ![] bcast_S_S80 : (⟨S_, .f32⟩ : BufTy).Contents (Elt F) → (⟨S80, .f32⟩ : BufTy).Contents (Elt F)),
    binary main_v1 main_v2 main_v3 (Host.powf : (⟨S80, .f32⟩ : BufTy).Contents (Elt F) → (⟨S80, .f32⟩ : BufTy).Contents (Elt F) → (⟨S80, .f32⟩ : BufTy).Contents (Elt F)),
    unary main_v3 main_v4 (broadcastInDim S80x1 ![0] bcast_S80_S80x1_0 : (⟨S80, .f32⟩ : BufTy).Contents (Elt F) → (⟨S80x1, .f32⟩ : BufTy).Contents (Elt F)),
    unary main_arg2 main_v5 ((transpose S80x80 [1, 0] · transposes_S80x80_S80x80_1_0) : (⟨S80x80, .f32⟩ : BufTy).Contents (Elt F) → (⟨S80x80, .f32⟩ : BufTy).Contents (Elt F)),
    unary main_v4 main_v6 (broadcastInDim S80x80 ![0, 1] bcast_S80x1_S80x80_0_1 : (⟨S80x1, .f32⟩ : BufTy).Contents (Elt F) → (⟨S80x80, .f32⟩ : BufTy).Contents (Elt F)),
    binary main_v6 main_v5 main_v7 (mulf : (⟨S80x80, .f32⟩ : BufTy).Contents (Elt F) → (⟨S80x80, .f32⟩ : BufTy).Contents (Elt F) → (⟨S80x80, .f32⟩ : BufTy).Contents (Elt F)),
    unary main_v3 main_v8 (broadcastInDim S1x80 ![1] bcast_S80_S1x80_1 : (⟨S80, .f32⟩ : BufTy).Contents (Elt F) → (⟨S1x80, .f32⟩ : BufTy).Contents (Elt F)),
    unary main_v8 main_v9 (broadcastInDim S80x80 ![0, 1] bcast_S1x80_S80x80_0_1 : (⟨S1x80, .f32⟩ : BufTy).Contents (Elt F) → (⟨S80x80, .f32⟩ : BufTy).Contents (Elt F)),
    binary main_v7 main_v9 main_v10 (mulf : (⟨S80x80, .f32⟩ : BufTy).Contents (Elt F) → (⟨S80x80, .f32⟩ : BufTy).Contents (Elt F) → (⟨S80x80, .f32⟩ : BufTy).Contents (Elt F)),
    binary main_v0 main_arg3 main_v11 ((fun l r => Host.dotGeneral dot_S80x300_S300x1024_S80x1024_1_0_0_1_n_n none l r) : (⟨S80x300, .f32⟩ : BufTy).Contents (Elt F) → (⟨S300x1024, .f32⟩ : BufTy).Contents (Elt F) → (⟨S80x1024, .f32⟩ : BufTy).Contents (Elt F)),
    binary main_v10 main_v11 main_v12 ((fun l r => Host.dotGeneral dot_S80x80_S80x1024_S80x1024_1_0_0_1_n_n none l r) : (⟨S80x80, .f32⟩ : BufTy).Contents (Elt F) → (⟨S80x1024, .f32⟩ : BufTy).Contents (Elt F) → (⟨S80x1024, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S80x1024 ![] bcast_S_S80x1024),
    TRef.binary (.of main_v12) main_call0.v0 main_call0.v1 (cmpf .oge),
    TRef.unary (.of main_cst_1) main_call0.v2 id,
    TRef.unary main_call0.v2 main_call0.v3 (broadcastInDim S80x1024 ![] bcast_S_S80x1024),
    TRef.binary main_call0.v3 (.of main_v12) main_call0.v4 mulf,
    TRef.ternary main_call0.v1 (.of main_v12) main_call0.v4 main_call0.call0.v0 select,
    binary main_v13 main_arg4 main_v14 ((fun l r => Host.dotGeneral dot_S80x1024_S1024x2048_S80x2048_1_0_0_1_n_n none l r) : (⟨S80x1024, .f32⟩ : BufTy).Contents (Elt F) → (⟨S1024x2048, .f32⟩ : BufTy).Contents (Elt F) → (⟨S80x2048, .f32⟩ : BufTy).Contents (Elt F)),
    binary main_v10 main_v14 main_v15 ((fun l r => Host.dotGeneral dot_S80x80_S80x2048_S80x2048_1_0_0_1_n_n none l r) : (⟨S80x80, .f32⟩ : BufTy).Contents (Elt F) → (⟨S80x2048, .f32⟩ : BufTy).Contents (Elt F) → (⟨S80x2048, .f32⟩ : BufTy).Contents (Elt F)),
    unary main_arg5 main_v16 ((transpose S2048x8000 [1, 0] · transposes_S8000x2048_S2048x8000_1_0) : (⟨S8000x2048, .f32⟩ : BufTy).Contents (Elt F) → (⟨S2048x8000, .f32⟩ : BufTy).Contents (Elt F)),
    binary main_arg0 main_v16 main_v17 ((fun l r => Host.dotGeneral dot_S1024x2048_S2048x8000_S1024x8000_1_0_0_1_n_n none l r) : (⟨S1024x2048, .f32⟩ : BufTy).Contents (Elt F) → (⟨S2048x8000, .f32⟩ : BufTy).Contents (Elt F) → (⟨S1024x8000, .f32⟩ : BufTy).Contents (Elt F)),
    unary main_arg6 main_v18 (broadcastInDim S1x8000 ![1] bcast_S8000_S1x8000_1 : (⟨S8000, .f32⟩ : BufTy).Contents (Elt F) → (⟨S1x8000, .f32⟩ : BufTy).Contents (Elt F)),
    unary main_v18 main_v19 (broadcastInDim S1024x8000 ![0, 1] bcast_S1x8000_S1024x8000_0_1 : (⟨S1x8000, .f32⟩ : BufTy).Contents (Elt F) → (⟨S1024x8000, .f32⟩ : BufTy).Contents (Elt F)),
    binary main_v17 main_v19 main_v20 (addf : (⟨S1024x8000, .f32⟩ : BufTy).Contents (Elt F) → (⟨S1024x8000, .f32⟩ : BufTy).Contents (Elt F) → (⟨S1024x8000, .f32⟩ : BufTy).Contents (Elt F)),
    unary main_arg7 main_v21 ((transpose S2048x8000 [1, 0] · transposes_S8000x2048_S2048x8000_1_0) : (⟨S8000x2048, .f32⟩ : BufTy).Contents (Elt F) → (⟨S2048x8000, .f32⟩ : BufTy).Contents (Elt F)),
    binary main_v15 main_v21 main_v22 ((fun l r => Host.dotGeneral dot_S80x2048_S2048x8000_S80x8000_1_0_0_1_n_n none l r) : (⟨S80x2048, .f32⟩ : BufTy).Contents (Elt F) → (⟨S2048x8000, .f32⟩ : BufTy).Contents (Elt F) → (⟨S80x8000, .f32⟩ : BufTy).Contents (Elt F)),
    unary main_arg8 main_v23 (broadcastInDim S1x8000 ![1] bcast_S8000_S1x8000_1 : (⟨S8000, .f32⟩ : BufTy).Contents (Elt F) → (⟨S1x8000, .f32⟩ : BufTy).Contents (Elt F)),
    unary main_v23 main_v24 (broadcastInDim S80x8000 ![0, 1] bcast_S1x8000_S80x8000_0_1 : (⟨S1x8000, .f32⟩ : BufTy).Contents (Elt F) → (⟨S80x8000, .f32⟩ : BufTy).Contents (Elt F)),
    binary main_v22 main_v24 main_v25 (addf : (⟨S80x8000, .f32⟩ : BufTy).Contents (Elt F) → (⟨S80x8000, .f32⟩ : BufTy).Contents (Elt F) → (⟨S80x8000, .f32⟩ : BufTy).Contents (Elt F)),
    unary main_v25 main_v26 ((transpose S8000x80 [1, 0] · transposes_S80x8000_S8000x80_1_0) : (⟨S80x8000, .f32⟩ : BufTy).Contents (Elt F) → (⟨S8000x80, .f32⟩ : BufTy).Contents (Elt F)),
    binary main_v20 main_v26 main_v27 ((fun l r => Host.dotGeneral dot_S1024x8000_S8000x80_S1024x80_1_0_0_1_n_n none l r) : (⟨S1024x8000, .f32⟩ : BufTy).Contents (Elt F) → (⟨S8000x80, .f32⟩ : BufTy).Contents (Elt F) → (⟨S1024x80, .f32⟩ : BufTy).Contents (Elt F)) ]

set_option maxRecDepth 1024 in
/-- The program is that straight line: the two bodies unfolded at the call and the call's buffer record at its
    fields, both sides are one chain of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub ..⟩

/-- From any memory with zero counters, for any float values: every weakly fair execution of the program
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefValue.lean ====
import proofs.«102190_j7868380086329_2_alg».proof.Proof.RefRun
import proofs.«102190_j7868380086329_2_alg».proof.Proof.ClsTerm
import proofs.«102190_j7868380086329_2_alg».proof.Proof.Spec
import Idealize.ShloMosaic.Lib.ValueLayout
import Idealize.ShloMosaic.Lib.KernelVsHost
import Idealize.ShloMosaic.PureOps.Ideal.Laws

/-! What the reference program's buffers hold after its operations, over the extended reals.

The class projection buffer holds the class-projection term of six arguments; the result buffer holds the
bilinear pooling of the features, the image projection's weights and bias, and the class projection buffer:
out[b, c] = sum over j < 8000 of (sum over k < 2048 of feat[b, k] * W[j, k] + bias[j]) * X[c, j];
every argument buffer holds what it held at the start. -/

noncomputable section

namespace Cert.RefValue

open Cert.ReferenceIdeal Cert.ReferenceIdeal.Gen Idealize.ShloMosaic Idealize.ShloMosaic.TcCoe
open Idealize.ShloMosaic.StableHlo Idealize.ShloMosaic.ValueIdx Cert.RefRun

/-! ## The argument buffers are unchanged -/

theorem arg_eq_0 (V : Valuation τ sig (Elt Ideal)) :
    after ops V (main_arg0 : DevRef τ sig) = V (main_arg0 : DevRef τ sig) := by
  after_results_simp

theorem arg_eq_1 (V : Valuation τ sig (Elt Ideal)) :
    after ops V (main_arg1 : DevRef τ sig) = V (main_arg1 : DevRef τ sig) := by
  after_results_simp

theorem arg_eq_2 (V : Valuation τ sig (Elt Ideal)) :
    after ops V (main_arg2 : DevRef τ sig) = V (main_arg2 : DevRef τ sig) := by
  after_results_simp

theorem arg_eq_3 (V : Valuation τ sig (Elt Ideal)) :
    after ops V (main_arg3 : DevRef τ sig) = V (main_arg3 : DevRef τ sig) := by
  after_results_simp

theorem arg_eq_4 (V : Valuation τ sig (Elt Ideal)) :
    after ops V (main_arg4 : DevRef τ sig) = V (main_arg4 : DevRef τ sig) := by
  after_results_simp

theorem arg_eq_5 (V : Valuation τ sig (Elt Ideal)) :
    after ops V (main_arg5 : DevRef τ sig) = V (main_arg5 : DevRef τ sig) := by
  after_results_simp

theorem arg_eq_6 (V : Valuation τ sig (Elt Ideal)) :
    after ops V (main_arg6 : DevRef τ sig) = V (main_arg6 : DevRef τ sig) := by
  after_results_simp

theorem arg_eq_7 (V : Valuation τ sig (Elt Ideal)) :
    after ops V (main_arg7 : DevRef τ sig) = V (main_arg7 : DevRef τ sig) := by
  after_results_simp

theorem arg_eq_8 (V : Valuation τ sig (Elt Ideal)) :
    after ops V (main_arg8 : DevRef τ sig) = V (main_arg8 : DevRef τ sig) := by
  after_results_simp

/-! ## The class projection -/

/-- The class projection buffer holds the class-projection term of the six arguments it is computed from:
    the fold's value at that buffer is the operations' composition, which is the term by computation. -/
theorem cls_eq (V : Valuation τ sig (Elt Ideal)) :
    after ops V (main_v25 : DevRef τ sig)
      = Cert.ClsTerm.clsTerm (V (main_arg1 : DevRef τ sig)) (V (main_arg2 : DevRef τ sig)) (V (main_arg3 : DevRef τ sig))
          (V (main_arg4 : DevRef τ sig)) (V (main_arg7 : DevRef τ sig)) (V (main_arg8 : DevRef τ sig)) := by
  after_results_simp
  rfl

/-! ## The result -/

/-- The image projection as the host computes it: features times the transposed weights, plus the bias
    broadcast along the 1024 rows. -/
def img (feat : (⟨S1024x2048, .f32⟩ : BufTy).Contents (Elt Ideal)) (W : (⟨S8000x2048, .f32⟩ : BufTy).Contents (Elt Ideal))
    (bias : (⟨S8000, .f32⟩ : BufTy).Contents (Elt Ideal)) : (⟨S1024x8000, .f32⟩ : BufTy).Contents (Elt Ideal) :=
  addf (F := Ideal) (φ := .f32)
    (Host.dotGeneral (F := Ideal) (φ₁ := .f32) (φ₂ := .f32) dot_S1024x2048_S2048x8000_S1024x8000_1_0_0_1_n_n none feat
      (transpose S2048x8000 [1, 0] W transposes_S8000x2048_S2048x8000_1_0))
    (broadcastInDim S1024x8000 ![0, 1] bcast_S1x8000_S1024x8000_0_1 (broadcastInDim S1x8000 ![1] bcast_S8000_S1x8000_1 bias))

/-- The pooled output as the host computes it from the image projection and a class projection X: the
    image projection times the transpose of X. -/
def pooled (feat : (⟨S1024x2048, .f32⟩ : BufTy).Contents (Elt Ideal)) (W : (⟨S8000x2048, .f32⟩ : BufTy).Contents (Elt Ideal))
    (bias : (⟨S8000, .f32⟩ : BufTy).Contents (Elt Ideal)) (X : (⟨S80x8000, .f32⟩ : BufTy).Contents (Elt Ideal)) :
    (⟨S1024x80, .f32⟩ : BufTy).Contents (Elt Ideal) :=
  Host.dotGeneral (F := Ideal) (φ₁ := .f32) (φ₂ := .f32) dot_S1024x8000_S8000x80_S1024x80_1_0_0_1_n_n none (img feat W bias)
    (transpose S8000x80 [1, 0] X transposes_S80x8000_S8000x80_1_0)

/-- The result buffer holds the host's pooled output of three arguments and the class projection buffer. -/
theorem v27_eq (V : Valuation τ sig (Elt Ideal)) :
    after ops V (main_v27 : DevRef τ sig)
      = pooled (V (main_arg0 : DevRef τ sig)) (V (main_arg5 : DevRef τ sig)) (V (main_arg6 : DevRef τ sig)) (after ops V (main_v25 : DevRef τ sig)) := by
  unfold pooled img
  after_results_simp

/-! ## The two products read at an entry -/

/-- On its free axis the left index of this product is the output's row. -/
theorem lhs17_0 (i : S1024x8000.Idx) (q : dot_S1024x2048_S2048x8000_S1024x8000_1_0_0_1_n_n.contr.Idx) :
    (dot_S1024x2048_S2048x8000_S1024x8000_1_0_0_1_n_n.lhsIdx i q 0).val = (i 0).val := by
  unfold DotDims.lhsIdx
  rw [dif_neg (show ¬(0 : Fin S1024x2048.rank) ∈ dot_S1024x2048_S2048x8000_S1024x8000_1_0_0_1_n_n.lhsBatch by decide), dif_pos (show (0 : Fin S1024x2048.rank) ∈ dot_S1024x2048_S2048x8000_S1024x8000_1_0_0_1_n_n.lhsNonContracting by decide)]
  rfl
/-- On its contracted axis the left index is the contraction position. -/
theorem lhs17_1 (i : S1024x8000.Idx) (q : dot_S1024x2048_S2048x8000_S1024x8000_1_0_0_1_n_n.contr.Idx) :
    (dot_S1024x2048_S2048x8000_S1024x8000_1_0_0_1_n_n.lhsIdx i q 1).val = (q ⟨0, by decide⟩).val :=
  dot_S1024x2048_S2048x8000_S1024x8000_1_0_0_1_n_n.lhsIdx_val_of_single rfl i q
/-- On its contracted axis the right index is the contraction position. -/
theorem rhs17_0 (i : S1024x8000.Idx) (q : dot_S1024x2048_S2048x8000_S1024x8000_1_0_0_1_n_n.contr.Idx) :
    (dot_S1024x2048_S2048x8000_S1024x8000_1_0_0_1_n_n.rhsIdx i q 0).val = (q ⟨0, by decide⟩).val :=
  dot_S1024x2048_S2048x8000_S1024x8000_1_0_0_1_n_n.rhsIdx_val_of_single rfl i q
/-- On its free axis the right index is the output's column. -/
theorem rhs17_1 (i : S1024x8000.Idx) (q : dot_S1024x2048_S2048x8000_S1024x8000_1_0_0_1_n_n.contr.Idx) :
    (dot_S1024x2048_S2048x8000_S1024x8000_1_0_0_1_n_n.rhsIdx i q 1).val = (i 1).val := by
  unfold DotDims.rhsIdx
  rw [dif_neg (show ¬(1 : Fin S2048x8000.rank) ∈ dot_S1024x2048_S2048x8000_S1024x8000_1_0_0_1_n_n.rhsBatch by decide), dif_pos (show (1 : Fin S2048x8000.rank) ∈ dot_S1024x2048_S2048x8000_S1024x8000_1_0_0_1_n_n.rhsNonContracting by decide)]
  rfl

/-- On its free axis the left index of this product is the output's row. -/
theorem lhs27_0 (i : S1024x80.Idx) (q : dot_S1024x8000_S8000x80_S1024x80_1_0_0_1_n_n.contr.Idx) :
    (dot_S1024x8000_S8000x80_S1024x80_1_0_0_1_n_n.lhsIdx i q 0).val = (i 0).val := by
  unfold DotDims.lhsIdx
  rw [dif_neg (show ¬(0 : Fin S1024x8000.rank) ∈ dot_S1024x8000_S8000x80_S1024x80_1_0_0_1_n_n.lhsBatch by decide), dif_pos (show (0 : Fin S1024x8000.rank) ∈ dot_S1024x8000_S8000x80_S1024x80_1_0_0_1_n_n.lhsNonContracting by decide)]
  rfl
/-- On its contracted axis the left index is the contraction position. -/
theorem lhs27_1 (i : S1024x80.Idx) (q : dot_S1024x8000_S8000x80_S1024x80_1_0_0_1_n_n.contr.Idx) :
    (dot_S1024x8000_S8000x80_S1024x80_1_0_0_1_n_n.lhsIdx i q 1).val = (q ⟨0, by decide⟩).val :=
  dot_S1024x8000_S8000x80_S1024x80_1_0_0_1_n_n.lhsIdx_val_of_single rfl i q
/-- On its contracted axis the right index is the contraction position. -/
theorem rhs27_0 (i : S1024x80.Idx) (q : dot_S1024x8000_S8000x80_S1024x80_1_0_0_1_n_n.contr.Idx) :
    (dot_S1024x8000_S8000x80_S1024x80_1_0_0_1_n_n.rhsIdx i q 0).val = (q ⟨0, by decide⟩).val :=
  dot_S1024x8000_S8000x80_S1024x80_1_0_0_1_n_n.rhsIdx_val_of_single rfl i q
/-- On its free axis the right index is the output's column. -/
theorem rhs27_1 (i : S1024x80.Idx) (q : dot_S1024x8000_S8000x80_S1024x80_1_0_0_1_n_n.contr.Idx) :
    (dot_S1024x8000_S8000x80_S1024x80_1_0_0_1_n_n.rhsIdx i q 1).val = (i 1).val := by
  unfold DotDims.rhsIdx
  rw [dif_neg (show ¬(1 : Fin S8000x80.rank) ∈ dot_S1024x8000_S8000x80_S1024x80_1_0_0_1_n_n.rhsBatch by decide), dif_pos (show (1 : Fin S8000x80.rank) ∈ dot_S1024x8000_S8000x80_S1024x80_1_0_0_1_n_n.rhsNonContracting by decide)]
  rfl

/-- A vector laid as the one row of a 1 × 8000 array reads its entry. -/
theorem row_apply (bias : (⟨S8000, .f32⟩ : BufTy).Contents (Elt Ideal)) (u : Fin 1) (j : Fin 8000) :
    broadcastInDim S1x8000 ![1] bcast_S8000_S1x8000_1 bias (ix2 u j) = bias (ix1 j) := by
  refine broadcastInDim_apply ![1] bcast_S8000_S1x8000_1 bias (ix2 u j) (ix1 j) ?_
  intro a
  match a with
  | ⟨0, _⟩ =>
    show j.val = if (8000 : ℕ) = 1 then 0 else j.val
    rw [if_neg (by decide)]

/-- An entry of the image projection: row b of the features against row j of the weights, plus the bias. -/
theorem img_apply (feat : (⟨S1024x2048, .f32⟩ : BufTy).Contents (Elt Ideal)) (W : (⟨S8000x2048, .f32⟩ : BufTy).Contents (Elt Ideal)) (bias : (⟨S8000, .f32⟩ : BufTy).Contents (Elt Ideal))
    (b : Fin 1024) (j : Fin 8000) :
    img feat W bias (ix2 b j) = (∑ k : Fin 2048, feat (ix2 b k) * W (ix2 j k)) + bias (ix1 j) := by
  unfold img
  rw [addf_apply, broadcastInDim_oneRow_apply, row_apply]
  refine congrArg (· + bias (ix1 j)) ?_
  simp only [Host.dotGeneral]
  rw [Ideal.dotGeneral_apply, ← Equiv.sum_comp (contrEquiv1 dot_S1024x2048_S2048x8000_S1024x8000_1_0_0_1_n_n 2048 rfl rfl).symm]
  refine Finset.sum_congr rfl fun k _ => ?_
  have hk := contrEquiv1_symm_val dot_S1024x2048_S2048x8000_S1024x8000_1_0_0_1_n_n 2048 rfl rfl k
  have el : dot_S1024x2048_S2048x8000_S1024x8000_1_0_0_1_n_n.lhsIdx (ix2 b j) ((contrEquiv1 dot_S1024x2048_S2048x8000_S1024x8000_1_0_0_1_n_n 2048 rfl rfl).symm k) = ix2 b k :=
    funext fun a => Fin.ext (by
      match a with
      | ⟨0, _⟩ => exact lhs17_0 _ _
      | ⟨1, _⟩ => exact (lhs17_1 _ _).trans hk)
  have er : dot_S1024x2048_S2048x8000_S1024x8000_1_0_0_1_n_n.rhsIdx (ix2 b j) ((contrEquiv1 dot_S1024x2048_S2048x8000_S1024x8000_1_0_0_1_n_n 2048 rfl rfl).symm k) = ix2 k j :=
    funext fun a => Fin.ext (by
      match a with
      | ⟨0, _⟩ => exact (rhs17_0 _ _).trans hk
      | ⟨1, _⟩ => exact rhs17_1 _ _)
  rw [el, er, transpose_ix2_apply]

/-- An entry of the pooled output: the image projection's row b against row c of the class projection. -/
theorem pooled_apply (feat : (⟨S1024x2048, .f32⟩ : BufTy).Contents (Elt Ideal)) (W : (⟨S8000x2048, .f32⟩ : BufTy).Contents (Elt Ideal)) (bias : (⟨S8000, .f32⟩ : BufTy).Contents (Elt Ideal))
    (X : (⟨S80x8000, .f32⟩ : BufTy).Contents (Elt Ideal)) (b : Fin 1024) (c : Fin 80) :
    pooled feat W bias X (ix2 b c) = ∑ j : Fin 8000, img feat W bias (ix2 b j) * X (ix2 c j) := by
  unfold pooled
  generalize img feat W bias = Y
  simp only [Host.dotGeneral]
  rw [Ideal.dotGeneral_apply, ← Equiv.sum_comp (contrEquiv1 dot_S1024x8000_S8000x80_S1024x80_1_0_0_1_n_n 8000 rfl rfl).symm]
  refine Finset.sum_congr rfl fun k _ => ?_
  have hk := contrEquiv1_symm_val dot_S1024x8000_S8000x80_S1024x80_1_0_0_1_n_n 8000 rfl rfl k
  have el : dot_S1024x8000_S8000x80_S1024x80_1_0_0_1_n_n.lhsIdx (ix2 b c) ((contrEquiv1 dot_S1024x8000_S8000x80_S1024x80_1_0_0_1_n_n 8000 rfl rfl).symm k) = ix2 b k :=
    funext fun a => Fin.ext (by
      match a with
      | ⟨0, _⟩ => exact lhs27_0 _ _
      | ⟨1, _⟩ => exact (lhs27_1 _ _).trans hk)
  have er : dot_S1024x8000_S8000x80_S1024x80_1_0_0_1_n_n.rhsIdx (ix2 b c) ((contrEquiv1 dot_S1024x8000_S8000x80_S1024x80_1_0_0_1_n_n 8000 rfl rfl).symm k) = ix2 k c :=
    funext fun a => Fin.ext (by
      match a with
      | ⟨0, _⟩ => exact (rhs27_0 _ _).trans hk
      | ⟨1, _⟩ => exact rhs27_1 _ _)
  rw [el, er, transpose_ix2_apply]

/-- The result buffer holds the bilinear pooling of the features, the image projection's weights and bias,
    and the class projection buffer. -/
theorem out_eq (V : Valuation τ sig (Elt Ideal)) :
    after ops V (main_v27 : DevRef τ sig)
      = Cert.Spec.bilin (V (main_arg0 : DevRef τ sig)) (V (main_arg5 : DevRef τ sig)) (V (main_arg6 : DevRef τ sig)) (after ops V (main_v25 : DevRef τ sig)) := by
  rw [v27_eq]
  generalize after ops V (main_v25 : DevRef τ sig) = X
  funext i
  obtain ⟨b, c, rfl⟩ : ∃ (b : Fin 1024) (c : Fin 80), i = ix2 b c := ⟨i 0, i 1, eq_ix2 i⟩
  rw [pooled_apply, Cert.Spec.bilin_ix2]
  unfold Cert.Spec.bilinAt Cert.Spec.imgAt
  refine Finset.sum_congr rfl fun j _ => ?_
  rw [img_apply]

end Cert.RefValue

end
-- ==== Proof.Claims.lean ====
import proofs.«102190_j7868380086329_2_alg».proof.Defs
import proofs.«102190_j7868380086329_2_alg».proof.Proof.Gen.Kernel.Frame
import proofs.«102190_j7868380086329_2_alg».proof.Proof.Gen.KernelIdeal.Frame
import proofs.«102190_j7868380086329_2_alg».proof.Proof.Gen.Pre_finite_inputs
import proofs.«102190_j7868380086329_2_alg».proof.Proof.KBridge
import proofs.«102190_j7868380086329_2_alg».proof.Proof.KClsProj
import proofs.«102190_j7868380086329_2_alg».proof.Proof.RefValue

/-! The five claims.

The two kernel programs' frames are their runs with the results dropped; the reference's frame is its straight-line
run read at the argument buffers. The idealization rewrote nothing. For the equivalence: the kernel program leaves
the bilinear pooling of (features, image weights, image bias, class projection) in its result, the reference leaves
the same pooling in its own, and the two class projections are one composed term of the arguments; the arguments
agree, so the results are equal entry by entry. -/

noncomputable section

namespace Cert.Proof.Claims

open Idealize.ShloMosaic Idealize.SL.Sem Idealize.ShloMosaic.StableHlo

/-- The pooling of equal arrays is equal. -/
theorem pooled_congr {a0 a0' : (⟨2, ![1024, 2048]⟩ : Shape).Idx → EReal} {a5 a5' : (⟨2, ![8000, 2048]⟩ : Shape).Idx → EReal}
    {a6 a6' : (⟨1, ![8000]⟩ : Shape).Idx → EReal}
    {a1 a1' : (⟨Cert.ReferenceIdeal.S1x80x300, .f32⟩ : BufTy).Contents (Elt Ideal)}
    {a2 a2' : (⟨Cert.ReferenceIdeal.S80x80, .f32⟩ : BufTy).Contents (Elt Ideal)}
    {a3 a3' : (⟨Cert.ReferenceIdeal.S300x1024, .f32⟩ : BufTy).Contents (Elt Ideal)}
    {a4 a4' : (⟨Cert.ReferenceIdeal.S1024x2048, .f32⟩ : BufTy).Contents (Elt Ideal)}
    {a7 a7' : (⟨Cert.ReferenceIdeal.S8000x2048, .f32⟩ : BufTy).Contents (Elt Ideal)}
    {a8 a8' : (⟨Cert.ReferenceIdeal.S8000, .f32⟩ : BufTy).Contents (Elt Ideal)}
    (h0 : a0 = a0') (h1 : a1 = a1') (h2 : a2 = a2') (h3 : a3 = a3') (h4 : a4 = a4') (h5 : a5 = a5') (h6 : a6 = a6')
    (h7 : a7 = a7') (h8 : a8 = a8') :
    Cert.Spec.bilin a0 a5 a6 (Cert.ClsTerm.clsTerm a1 a2 a3 a4 a7 a8)
      = Cert.Spec.bilin a0' a5' a6' (Cert.ClsTerm.clsTerm a1' a2' a3' a4' a7' a8') := by
  subst h0 h1 h2 h3 h4 h5 h6 h7 h8
  rfl

theorem frame_k : Cert.frame_Kernel := fun m ρ _ => Cert.Kernel.Gen.frame m ρ

theorem frame_ki : Cert.frame_KernelIdeal := fun m ρ _ => Cert.KernelIdeal.Gen.frame m ρ

theorem frame_r : Cert.frame_ReferenceIdeal := fun m ρ _ =>
  (θ_run Cert.ReferenceIdeal.defs _ _).mono (fun _ h c =>
    ⟨(h c _).trans (Cert.RefValue.arg_eq_0 _),
      (h c _).trans (Cert.RefValue.arg_eq_1 _),
      (h c _).trans (Cert.RefValue.arg_eq_2 _),
      (h c _).trans (Cert.RefValue.arg_eq_3 _),
      (h c _).trans (Cert.RefValue.arg_eq_4 _),
      (h c _).trans (Cert.RefValue.arg_eq_5 _),
      (h c _).trans (Cert.RefValue.arg_eq_6 _),
      (h c _).trans (Cert.RefValue.arg_eq_7 _),
      (h c _).trans (Cert.RefValue.arg_eq_8 _)⟩)
    (Cert.RefRun.run_main (F := Ideal) m ρ)

theorem preserves : Cert.preserves_Kernel_KernelIdeal := trivial

theorem algebraic : Cert.algebraic_KernelIdeal_ReferenceIdeal := by
  intro m ρ m' ρ' _ hagree
  refine ⟨fun c => Cert.KFinal.out m c, Cert.KFinal.run m ρ, ?_⟩
  refine (θ_run Cert.ReferenceIdeal.defs _ _).mono (fun _ h c =>
    ⟨(h c _).trans ?_,
      (h c _).trans (Cert.RefValue.arg_eq_0 _),
      (h c _).trans (Cert.RefValue.arg_eq_1 _),
      (h c _).trans (Cert.RefValue.arg_eq_2 _),
      (h c _).trans (Cert.RefValue.arg_eq_3 _),
      (h c _).trans (Cert.RefValue.arg_eq_4 _),
      (h c _).trans (Cert.RefValue.arg_eq_5 _),
      (h c _).trans (Cert.RefValue.arg_eq_6 _),
      (h c _).trans (Cert.RefValue.arg_eq_7 _),
      (h c _).trans (Cert.RefValue.arg_eq_8 _)⟩)
    (Cert.RefRun.run_main (F := Ideal) m' ρ')
  obtain ⟨h0, h1, h2, h3, h4, h5, h6, h7, h8⟩ := hagree c
  rw [Cert.RefValue.out_eq, Cert.RefValue.cls_eq]
  refine Eq.trans ?_ (Cert.KBridge.out_eq m c).symm
  rw [Cert.KClsProj.V_clsProj m c]
  exact pooled_congr h0 h1 h2 h3 h4 h5 h6 h7 h8

end Cert.Proof.Claims

end
-- ==== Proof.lean ====
/- The certificate of the bilinear-pooling kernel against its reference.

   Both programs compute, over the extended reals,
     out[b, c] = sum over j < 8000 of (sum over k < 2048 of feature[b, k] * W_img[j, k] + b_img[j]) * cls[c, j],
   where cls, the 80 x 8000 class projection, comes from the same chain of host operations in both. The kernel pads
   the 8000 positions to 8192 with zeros and accumulates sixteen tiles of 512 positions along each row of its grid;
   a padded position contributes zero, and a sum may be regrouped freely, so the two results agree entry by entry.
   The modules: Spec (the function), KPieces / KPayload / KAccum / KFinal (the kernel program's result array),
   KOperands / KClsProj (the arrays the kernel's region is given), BlockAlg (the regrouping), KBridge (the kernel's
   result is the function), ClsTerm / RefRun / RefValue (the reference's), Claims (the five claims). -/
import proofs.«102190_j7868380086329_2_alg».proof.Defs
import proofs.«102190_j7868380086329_2_alg».proof.Proof.Gen.Kernel
import proofs.«102190_j7868380086329_2_alg».proof.Proof.Gen.Kernel.Skeleton
import proofs.«102190_j7868380086329_2_alg».proof.Proof.Gen.Kernel.Launch
import proofs.«102190_j7868380086329_2_alg».proof.Proof.Gen.Kernel.Points
import proofs.«102190_j7868380086329_2_alg».proof.Proof.Gen.Kernel.Frame
import proofs.«102190_j7868380086329_2_alg».proof.Proof.Gen.KernelIdeal
import proofs.«102190_j7868380086329_2_alg».proof.Proof.Gen.KernelIdeal.Skeleton
import proofs.«102190_j7868380086329_2_alg».proof.Proof.Gen.KernelIdeal.Launch
import proofs.«102190_j7868380086329_2_alg».proof.Proof.Gen.KernelIdeal.Points
import proofs.«102190_j7868380086329_2_alg».proof.Proof.Gen.KernelIdeal.Frame
import proofs.«102190_j7868380086329_2_alg».proof.Proof.Gen.KernelIdeal.Value
import proofs.«102190_j7868380086329_2_alg».proof.Proof.Gen.ReferenceIdeal
import proofs.«102190_j7868380086329_2_alg».proof.Proof.Gen.Pre_finite_inputs
import proofs.«102190_j7868380086329_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_r, Claims.preserves, Claims.algebraic⟩

end Cert.Proof

end
